-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16x25x16x128 : Shape := ⟨5, ![16, 16, 25, 16, 128]⟩
abbrev S_ : Shape := ⟨0, ![]⟩

class Facts : Prop where
  bcast_S_S16x16x25x16x128 : S_.BroadcastsInDim S16x16x25x16x128 (![] : Fin 0 → Fin S16x16x25x16x128.rank)
  reducesTo_S16x16x25x16x128_S_d0_1_2_3_4 : S16x16x25x16x128.ReducesTo [0, 1, 2, 3, 4] S_
  h_S_ : 0 < S_.numel

variable [Facts]

def fn {F : FTy → Type} [FloatOps F] (main_arg0 : FVec F S16x16x25x16x128 .f32) (main_arg1 : FVec F S16x16x25x16x128 .f32) (main_arg2 : FVec F S16x16x25x16x128 .f32) : IVec S_ 1 :=
  let main_v0 : FVec F S16x16x25x16x128 .f32 := Host.absf main_arg0
  let main_cst : FVec F S_ .f32 := constant S_ .f32 0x7F800000#32
  let main_v1 : FVec F S16x16x25x16x128 .f32 := broadcastInDim S16x16x25x16x128 ![] bcast_S_S16x16x25x16x128 main_cst
  let main_v2 : IVec S16x16x25x16x128 1 := cmpf .olt main_v0 main_v1
  let main_c : IVec S_ 1 := constantI S_ 1 1#1
  let main_v3 : IVec S_ 1 := (fun x v => Host.reduce IntOp.andi x v reducesTo_S16x16x25x16x128_S_d0_1_2_3_4 h_S_) main_v2 main_c
  let main_v4 : FVec F S16x16x25x16x128 .f32 := Host.absf main_arg1
  let main_cst_0 : FVec F S_ .f32 := constant S_ .f32 0x7F800000#32
  let main_v5 : FVec F S16x16x25x16x128 .f32 := broadcastInDim S16x16x25x16x128 ![] bcast_S_S16x16x25x16x128 main_cst_0
  let main_v6 : IVec S16x16x25x16x128 1 := cmpf .olt main_v4 main_v5
  let main_c_1 : IVec S_ 1 := constantI S_ 1 1#1
  let main_v7 : IVec S_ 1 := (fun x v => Host.reduce IntOp.andi x v reducesTo_S16x16x25x16x128_S_d0_1_2_3_4 h_S_) main_v6 main_c_1
  let main_v8 : IVec S_ 1 := andi main_v3 main_v7
  let main_v9 : FVec F S16x16x25x16x128 .f32 := Host.absf main_arg2
  let main_cst_2 : FVec F S_ .f32 := constant S_ .f32 0x7F800000#32
  let main_v10 : FVec F S16x16x25x16x128 .f32 := broadcastInDim S16x16x25x16x128 ![] bcast_S_S16x16x25x16x128 main_cst_2
  let main_v11 : IVec S16x16x25x16x128 1 := cmpf .olt main_v9 main_v10
  let main_c_3 : IVec S_ 1 := constantI S_ 1 1#1
  let main_v12 : IVec S_ 1 := (fun x v => Host.reduce IntOp.andi x v reducesTo_S16x16x25x16x128_S_d0_1_2_3_4 h_S_) main_v11 main_c_3
  let main_v13 : IVec S_ 1 := andi main_v8 main_v12
  main_v13
-- ==== Kernel.lean ====
abbrev S16x16x25x16x128 : Shape := ⟨5, ![16, 16, 25, 16, 128]⟩
abbrev S1x16x25x16x128 : Shape := ⟨5, ![1, 16, 25, 16, 128]⟩
abbrev S16x25x16x128 : Shape := ⟨4, ![16, 25, 16, 128]⟩
abbrev S16x16x25x128 : Shape := ⟨4, ![16, 16, 25, 128]⟩
abbrev S256x3200 : Shape := ⟨2, ![256, 3200]⟩
abbrev S256 : Shape := ⟨1, ![256]⟩
abbrev S256x1 : Shape := ⟨2, ![256, 1]⟩
abbrev S256x256 : Shape := ⟨2, ![256, 256]⟩

abbrev nBuf : Space → Nat
  | .hbm => 4
  | .vmem => 8
  | .smem => 0
  | _ => 0

abbrev bufTy : (tb : Table) → Fin (tcTables nBuf tb) → BufTy
  | .hbm, ⟨0, _⟩ => ⟨S16x16x25x16x128, .f32⟩
  | .hbm, ⟨1, _⟩ => ⟨S16x16x25x16x128, .f32⟩
  | .hbm, ⟨2, _⟩ => ⟨S16x16x25x16x128, .f32⟩
  | .hbm, ⟨3, _⟩ => ⟨S16x16x25x16x128, .f32⟩
  | .local _ .vmem, ⟨0, _⟩ => ⟨S1x16x25x16x128, .f32⟩
  | .local _ .vmem, ⟨1, _⟩ => ⟨S1x16x25x16x128, .f32⟩
  | .local _ .vmem, ⟨2, _⟩ => ⟨S1x16x25x16x128, .f32⟩
  | .local _ .vmem, ⟨3, _⟩ => ⟨S1x16x25x16x128, .f32⟩
  | .local _ .vmem, ⟨4, _⟩ => ⟨S1x16x25x16x128, .f32⟩
  | .local _ .vmem, ⟨5, _⟩ => ⟨S1x16x25x16x128, .f32⟩
  | .local _ .vmem, ⟨6, _⟩ => ⟨S1x16x25x16x128, .f32⟩
  | .local _ .vmem, ⟨7, _⟩ => ⟨S1x16x25x16x128, .f32⟩
  | _, _ => ⟨S16x16x25x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x16x25x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x25x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x25x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x25x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x16x25x16x128_S1x16x25x16x128_0_0_0_0_0 : ∀ a, (![0, 0, 0, 0, 0] : Fin 5 → Nat) a + S1x16x25x16x128.size a ≤ S1x16x25x16x128.size a
  h_S1x16x25x16x128 : 0 < S1x16x25x16x128.numel
  shapeCasts_S1x16x25x16x128_S16x25x16x128 : S1x16x25x16x128.ShapeCasts S16x25x16x128
  transposes_S16x25x16x128_p0_2_1_3_S16x16x25x128 : S16x25x16x128.Transposes [0, 2, 1, 3] S16x16x25x128
  shapeCasts_S16x16x25x128_S256x3200 : S16x16x25x128.ShapeCasts S256x3200
  reduces_S256x3200_S256 : S256x3200.Reduces [1] S256
  shapeCasts_S256_S256x1 : S256.ShapeCasts S256x1
  broadcasts_S256x1_S256x3200 : S256x1.Broadcasts S256x3200
  bitsLt_bf16_f32 : FTy.bits .bf16 < FTy.bits .f32
  iota_S256x256_d0_w32 : S256x256.Iotas .tc 32 [0]
  iota_S256x256_d1_w32 : S256x256.Iotas .tc 32 [1]
  reduces_S256x256_S256 : S256x256.Reduces [1] S256
  broadcasts_S256x1_S256x256 : S256x1.Broadcasts S256x256
  shapeCasts_S256x3200_S16x16x25x128 : S256x3200.ShapeCasts S16x16x25x128
  transposes_S16x16x25x128_p0_2_1_3_S16x25x16x128 : S16x16x25x128.Transposes [0, 2, 1, 3] S16x25x16x128
  shapeCasts_S16x25x16x128_S1x16x25x16x128 : S16x25x16x128.ShapeCasts S1x16x25x16x128
  dot_S256x3200_S256x3200_S256x256_1_1_0_0_n_n_wf : DotDims.WF S256x3200 S256x3200 S256x256 [1] [1] [0] [0] [] []
  dot_S256x256_S256x3200_S256x3200_1_0_0_1_n_n_wf : DotDims.WF S256x256 S256x3200 S256x3200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x25x16x128.size a ≤ S16x16x25x16x128.size a
  hwx0_0 : ∀ i : grid0.Coords, EltTy.bits .f32 = 32 ∨ (Rect.block (s := S16x16x25x16x128) S1x16x25x16x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x25x16x128.size a ≤ S16x16x25x16x128.size a
  hwx0_1 : ∀ i : grid0.Coords, EltTy.bits .f32 = 32 ∨ (Rect.block (s := S16x16x25x16x128) S1x16x25x16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x25x16x128.size a ≤ S16x16x25x16x128.size a
  hwx0_2 : ∀ i : grid0.Coords, EltTy.bits .f32 = 32 ∨ (Rect.block (s := S16x16x25x16x128) S1x16x25x16x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x25x16x128.size a ≤ S16x16x25x16x128.size a
  hwx0_3 : ∀ i : grid0.Coords, EltTy.bits .f32 = 32 ∨ (Rect.block (s := S16x16x25x16x128) S1x16x25x16x128.size (cc0_transform_3 i) (hinb0_3 i)).WholeWords (EltTy.packing .f32)

variable [Facts₀]

def dot_S256x3200_S256x3200_S256x256_1_1_0_0_n_n : DotDims S256x3200 S256x3200 S256x256 where
  lhsContracting := [1]
  rhsContracting := [1]
  lhsNonContracting := [0]
  rhsNonContracting := [0]
  lhsBatch := []
  rhsBatch := []
  wf := dot_S256x3200_S256x3200_S256x256_1_1_0_0_n_n_wf
def dot_S256x256_S256x3200_S256x3200_1_0_0_1_n_n : DotDims S256x256 S256x3200 S256x3200 where
  lhsContracting := [1]
  rhsContracting := [0]
  lhsNonContracting := [0]
  rhsNonContracting := [1]
  lhsBatch := []
  rhsBatch := []
  wf := dot_S256x256_S256x3200_S256x3200_1_0_0_1_n_n_wf

abbrev win0_0 : Pipeline.Window sig grid0 :=
  Pipeline.Window.ofSpec (Memref.whole main_arg0) S1x16x25x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x25x16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x16x25x16x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x16x25x16x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x16x25x16x128 : Shape := ⟨5, ![16, 16, 25, 16, 128]⟩
abbrev S16x16x5x5x16x128 : Shape := ⟨6, ![16, 16, 5, 5, 16, 128]⟩
abbrev S16x16x16x128x5x5 : Shape := ⟨6, ![16, 16, 16, 128, 5, 5]⟩
abbrev S16x256x3200 : Shape := ⟨3, ![16, 256, 3200]⟩
abbrev S_ : Shape := ⟨0, ![]⟩
abbrev S16x256 : Shape := ⟨2, ![16, 256]⟩
abbrev S16x256x1 : Shape := ⟨3, ![16, 256, 1]⟩
abbrev S16x128x5x5x16x16 : Shape := ⟨6, ![16, 128, 5, 5, 16, 16]⟩
abbrev S16x3200x256 : Shape := ⟨3, ![16, 3200, 256]⟩
abbrev S16x1x256 : Shape := ⟨3, ![16, 1, 256]⟩
abbrev S16x256x256 : Shape := ⟨3, ![16, 256, 256]⟩
abbrev S256x256 : Shape := ⟨2, ![256, 256]⟩

abbrev nBuf : Space → Nat
  | .hbm => 67
  | .vmem => 0
  | .smem => 0
  | _ => 0

abbrev bufTy : (tb : Table) → Fin (tcTables nBuf tb) → BufTy
  | .hbm, ⟨0, _⟩ => ⟨S16x16x25x16x128, .f32⟩
  | .hbm, ⟨1, _⟩ => ⟨S16x16x25x16x128, .f32⟩
  | .hbm, ⟨2, _⟩ => ⟨S16x16x25x16x128, .f32⟩
  | .hbm, ⟨3, _⟩ => ⟨S16x16x5x5x16x128, .f32⟩
  | .hbm, ⟨4, _⟩ => ⟨S16x16x16x128x5x5, .f32⟩
  | .hbm, ⟨5, _⟩ => ⟨S16x256x3200, .f32⟩
  | .hbm, ⟨6, _⟩ => ⟨S16x256x3200, .f32⟩
  | .hbm, ⟨7, _⟩ => ⟨S_, .f32⟩
  | .hbm, ⟨8, _⟩ => ⟨S16x256, .f32⟩
  | .hbm, ⟨9, _⟩ => ⟨S16x256x1, .f32⟩
  | .hbm, ⟨10, _⟩ => ⟨S16x256x1, .f32⟩
  | .hbm, ⟨11, _⟩ => ⟨S_, .f32⟩
  | .hbm, ⟨12, _⟩ => ⟨S16x256x1, .f32⟩
  | .hbm, ⟨13, _⟩ => ⟨S16x256x1, .f32⟩
  | .hbm, ⟨14, _⟩ => ⟨S16x256x3200, .f32⟩
  | .hbm, ⟨15, _⟩ => ⟨S16x256x3200, .f32⟩
  | .hbm, ⟨16, _⟩ => ⟨S16x16x5x5x16x128, .f32⟩
  | .hbm, ⟨17, _⟩ => ⟨S16x128x5x5x16x16, .f32⟩
  | .hbm, ⟨18, _⟩ => ⟨S16x3200x256, .f32⟩
  | .hbm, ⟨19, _⟩ => ⟨S16x3200x256, .f32⟩
  | .hbm, ⟨20, _⟩ => ⟨S_, .f32⟩
  | .hbm, ⟨21, _⟩ => ⟨S16x256, .f32⟩
  | .hbm, ⟨22, _⟩ => ⟨S16x1x256, .f32⟩
  | .hbm, ⟨23, _⟩ => ⟨S16x1x256, .f32⟩
  | .hbm, ⟨24, _⟩ => ⟨S_, .f32⟩
  | .hbm, ⟨25, _⟩ => ⟨S16x1x256, .f32⟩
  | .hbm, ⟨26, _⟩ => ⟨S16x1x256, .f32⟩
  | .hbm, ⟨27, _⟩ => ⟨S16x3200x256, .f32⟩
  | .hbm, ⟨28, _⟩ => ⟨S16x3200x256, .f32⟩
  | .hbm, ⟨29, _⟩ => ⟨S16x16x5x5x16x128, .f32⟩
  | .hbm, ⟨30, _⟩ => ⟨S16x16x16x128x5x5, .f32⟩
  | .hbm, ⟨31, _⟩ => ⟨S16x256x3200, .f32⟩
  | .hbm, ⟨32, _⟩ => ⟨S16x256x256, .f32⟩
  | .hbm, ⟨33, _⟩ => ⟨S_, .i1⟩
  | .hbm, ⟨34, _⟩ => ⟨S256x256, .i1⟩
  | .hbm, ⟨35, _⟩ => ⟨S256x256, .i32⟩
  | .hbm, ⟨36, _⟩ => ⟨S_, .i32⟩
  | .hbm, ⟨37, _⟩ => ⟨S256x256, .i32⟩
  | .hbm, ⟨38, _⟩ => ⟨S256x256, .i32⟩
  | .hbm, ⟨39, _⟩ => ⟨S256x256, .i32⟩
  | .hbm, ⟨40, _⟩ => ⟨S256x256, .i1⟩
  | .hbm, ⟨41, _⟩ => ⟨S_, .i1⟩
  | .hbm, ⟨42, _⟩ => ⟨S256x256, .i1⟩
  | .hbm, ⟨43, _⟩ => ⟨S256x256, .i1⟩
  | .hbm, ⟨44, _⟩ => ⟨S_, .f32⟩
  | .hbm, ⟨45, _⟩ => ⟨S16x256x256, .i1⟩
  | .hbm, ⟨46, _⟩ => ⟨S16x256x256, .f32⟩
  | .hbm, ⟨47, _⟩ => ⟨S16x256x256, .f32⟩
  | .hbm, ⟨48, _⟩ => ⟨S_, .f32⟩
  | .hbm, ⟨49, _⟩ => ⟨S16x256, .f32⟩
  | .hbm, ⟨50, _⟩ => ⟨S_, .f32⟩
  | .hbm, ⟨51, _⟩ => ⟨S16x256, .f32⟩
  | .hbm, ⟨52, _⟩ => ⟨S16x256, .f32⟩
  | .hbm, ⟨53, _⟩ => ⟨S16x256x1, .f32⟩
  | .hbm, ⟨54, _⟩ => ⟨S16x256x256, .f32⟩
  | .hbm, ⟨55, _⟩ => ⟨S16x256x256, .f32⟩
  | .hbm, ⟨56, _⟩ => ⟨S16x256x256, .f32⟩
  | .hbm, ⟨57, _⟩ => ⟨S_, .f32⟩
  | .hbm, ⟨58, _⟩ => ⟨S16x256, .f32⟩
  | .hbm, ⟨59, _⟩ => ⟨S16x256x1, .f32⟩
  | .hbm, ⟨60, _⟩ => ⟨S16x256x256, .f32⟩
  | .hbm, ⟨61, _⟩ => ⟨S16x256x256, .f32⟩
  | .hbm, ⟨62, _⟩ => ⟨S16x256x3200, .f32⟩
  | .hbm, ⟨63, _⟩ => ⟨S16x16x16x128x5x5, .f32⟩
  | .hbm, ⟨64, _⟩ => ⟨S16x16x5x5x16x128, .f32⟩
  | .hbm, ⟨65, _⟩ => ⟨S16x16x25x16x128, .f32⟩
  | .hbm, ⟨66, _⟩ => ⟨S16x16x25x16x128, .f32⟩
  | _, _ => ⟨S16x16x25x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c : Ref sig .tc := ⟨.hbm, 33, rfl⟩
abbrev main_v26 : Ref sig .tc := ⟨.hbm, 34, rfl⟩
abbrev main_call0_v0 : Ref sig .tc := ⟨.hbm, 35, rfl⟩
abbrev main_call0_c : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_c_0 : Ref sig .tc := ⟨.hbm, 41, rfl⟩
abbrev main_call0_v5 : Ref sig .tc := ⟨.hbm, 42, rfl⟩
abbrev main_v27 : Ref sig .tc := ⟨.hbm, 43, rfl⟩
abbrev main_cst_3 : Ref sig .tc := ⟨.hbm, 44, rfl⟩
abbrev main_call1_v0 : Ref sig .tc := ⟨.hbm, 45, rfl⟩
abbrev main_call1_v1 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]

class Facts₀ : Prop where
  shapeCasts_S16x16x25x16x128_S16x16x5x5x16x128 : S16x16x25x16x128.ShapeCasts S16x16x5x5x16x128
  transposes_S16x16x5x5x16x128_S16x16x16x128x5x5_0_1_4_5_2_3 : S16x16x5x5x16x128.Transposes [0, 1, 4, 5, 2, 3] S16x16x16x128x5x5
  shapeCasts_S16x16x16x128x5x5_S16x256x3200 : S16x16x16x128x5x5.ShapeCasts S16x256x3200
  reducesTo_S16x256x3200_S16x256_d2 : S16x256x3200.ReducesTo [2] S16x256
  h_S_ : 0 < S_.numel
  bcast_S16x256_S16x256x1_0_1 : S16x256.BroadcastsInDim S16x256x1 (![0, 1] : Fin 2 → Fin S16x256x1.rank)
  bcast_S_S16x256x1 : S_.BroadcastsInDim S16x256x1 (![] : Fin 0 → Fin S16x256x1.rank)
  bcast_S16x256x1_S16x256x3200_0_1_2 : S16x256x1.BroadcastsInDim S16x256x3200 (![0, 1, 2] : Fin 3 → Fin S16x256x3200.rank)
  transposes_S16x16x5x5x16x128_S16x128x5x5x16x16_0_5_2_3_1_4 : S16x16x5x5x16x128.Transposes [0, 5, 2, 3, 1, 4] S16x128x5x5x16x16
  shapeCasts_S16x128x5x5x16x16_S16x3200x256 : S16x128x5x5x16x16.ShapeCasts S16x3200x256
  reducesTo_S16x3200x256_S16x256_d1 : S16x3200x256.ReducesTo [1] S16x256
  bcast_S16x256_S16x1x256_0_2 : S16x256.BroadcastsInDim S16x1x256 (![0, 2] : Fin 2 → Fin S16x1x256.rank)
  bcast_S_S16x1x256 : S_.BroadcastsInDim S16x1x256 (![] : Fin 0 → Fin S16x1x256.rank)
  bcast_S16x1x256_S16x3200x256_0_1_2 : S16x1x256.BroadcastsInDim S16x3200x256 (![0, 1, 2] : Fin 3 → Fin S16x3200x256.rank)
  bcast_S_S256x256 : S_.BroadcastsInDim S256x256 (![] : Fin 0 → Fin S256x256.rank)
  bcast_S256x256_S16x256x256_1_2 : S256x256.BroadcastsInDim S16x256x256 (![1, 2] : Fin 2 → Fin S16x256x256.rank)
  bcast_S_S16x256x256 : S_.BroadcastsInDim S16x256x256 (![] : Fin 0 → Fin S16x256x256.rank)
  reducesTo_S16x256x256_S16x256_d2 : S16x256x256.ReducesTo [2] S16x256
  bcast_S_S16x256 : S_.BroadcastsInDim S16x256 (![] : Fin 0 → Fin S16x256.rank)
  bcast_S16x256x1_S16x256x256_0_1_2 : S16x256x1.BroadcastsInDim S16x256x256 (![0, 1, 2] : Fin 3 → Fin S16x256x256.rank)
  shapeCasts_S16x256x3200_S16x16x16x128x5x5 : S16x256x3200.ShapeCasts S16x16x16x128x5x5
  transposes_S16x16x16x128x5x5_S16x16x5x5x16x128_0_1_4_5_2_3 : S16x16x16x128x5x5.Transposes [0, 1, 4, 5, 2, 3] S16x16x5x5x16x128
  shapeCasts_S16x16x5x5x16x128_S16x16x25x16x128 : S16x16x5x5x16x128.ShapeCasts S16x16x25x16x128
  dot_S16x256x3200_S16x3200x256_S16x256x256_2_1_1_2_0_0_wf : DotDims.WF S16x256x3200 S16x3200x256 S16x256x256 [2] [1] [1] [2] [0] [0]
  dot_S16x256x256_S16x256x3200_S16x256x3200_2_1_1_2_0_0_wf : DotDims.WF S16x256x256 S16x256x3200 S16x256x3200 [2] [1] [1] [2] [0] [0]

variable [Facts₀]

def dot_S16x256x3200_S16x3200x256_S16x256x256_2_1_1_2_0_0 : DotDims S16x256x3200 S16x3200x256 S16x256x256 where
  lhsContracting := [2]
  rhsContracting := [1]
  lhsNonContracting := [1]
  rhsNonContracting := [2]
  lhsBatch := [0]
  rhsBatch := [0]
  wf := dot_S16x256x3200_S16x3200x256_S16x256x256_2_1_1_2_0_0_wf
def dot_S16x256x256_S16x256x3200_S16x256x3200_2_1_1_2_0_0 : DotDims S16x256x256 S16x256x3200 S16x256x3200 where
  lhsContracting := [2]
  rhsContracting := [1]
  lhsNonContracting := [1]
  rhsNonContracting := [2]
  lhsBatch := [0]
  rhsBatch := [0]
  wf := dot_S16x256x256_S16x256x3200_S16x256x3200_2_1_1_2_0_0_wf

class Facts : Prop extends Facts₀ where

variable [Facts]
-- ==== Proof.AttnSpec.lean ====
/-
  Causal softmax attention over the rows of a five-axis array, as ONE function of the three argument arrays.

  An argument array has axes (b, c, n, h, w) of extents (16, 16, 25, 16, 128). For a batch entry b it is read as a
  matrix of 256 rows and 3200 columns: row r = 16·c + h, column k = 128·n + w ('row'). Each row of Q and of K is divided
  by the larger of its Euclidean length and a fixed small number ('den', 'nr'); the score of row t against row r is the
  inner product of the two normalised rows ('att'); a score with r above t is replaced by a fixed large negative number
  ('msk'); every row of masked scores is shifted by its maximum, exponentiated and divided by its sum ('mx', 'ex', 'sm',
  'pr'); the result row t is the combination of the rows of V with these weights ('outv'), and the array returned adds V
  back ('G').

  The other enumeration of the 3200 columns met below is k' = 25·w + n. 'colSwap' is the bijection between the two and
  'sum_colSwap' says a sum over all columns does not depend on which enumeration is used: addition of extended reals is
  commutative and associative, so no finiteness is asked.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- An argument or result array: axes (b, c, n, h, w). -/
abbrev Arr : Type := (⟨5, ![16, 16, 25, 16, 128]⟩ : Shape).Idx → EReal

/-- The small number a row's length is bounded below by. -/
def eps : EReal := Ideal.ofBits .f32 0x2B8CBCCC#32
/-- The large negative number a masked score is replaced by. -/
def negBig : EReal := Ideal.ofBits .f32 0xD8635FA9#32
/-- The value a row's maximum is folded from. -/
def negInf : EReal := Ideal.ofBits .f32 0xFF800000#32

theorem row_c (r : Fin 256) : r.val / 16 < 16 := by have := r.isLt; omega
theorem row_h (r : Fin 256) : r.val % 16 < 16 := Nat.mod_lt _ (by decide)
theorem col_n (k : Fin 3200) : k.val / 128 < 25 := by have := k.isLt; omega
theorem col_w (k : Fin 3200) : k.val % 128 < 128 := Nat.mod_lt _ (by decide)

/-- Batch entry 'b' of 'X' as a 256 × 3200 matrix: row 16·c + h, column 128·n + w. -/
def row (X : Arr) (b : Fin 16) (r : Fin 256) (k : Fin 3200) : EReal :=
  X (ix5 b ⟨r.val / 16, row_c r⟩ ⟨k.val / 128, col_n k⟩ ⟨r.val % 16, row_h r⟩ ⟨k.val % 128, col_w k⟩)

/-- The squared length of a row. -/
def sqn (X : Arr) (b : Fin 16) (r : Fin 256) : EReal := ∑ k : Fin 3200, row X b r k * row X b r k
/-- What a row is divided by. -/
def den (X : Arr) (b : Fin 16) (r : Fin 256) : EReal := max (Ideal.sqrt (sqn X b r)) eps
/-- The normalised row. -/
def nr (X : Arr) (b : Fin 16) (r : Fin 256) (k : Fin 3200) : EReal := Ideal.div (row X b r k) (den X b r)
/-- The score of row 't' of Q against row 'r' of K. -/
def att (Q K : Arr) (b : Fin 16) (t r : Fin 256) : EReal := ∑ k : Fin 3200, nr Q b t k * nr K b r k
/-- Whether row 'r' is at or below row 't', as the comparison of the two row numbers as 32-bit words. -/
def keep (t r : Fin 256) : BitVec 1 := IntOp.cmpi .sge (BitVec.ofNat 32 t.val) (BitVec.ofNat 32 r.val)
/-- The masked score. -/
def msk (Q K : Arr) (b : Fin 16) (t r : Fin 256) : EReal := Scalar.select (keep t r) (att Q K b t r) negBig
/-- A row's maximum. -/
def mx (Q K : Arr) (b : Fin 16) (t : Fin 256) : EReal :=
  (Finset.univ : Finset (Fin 256)).fold max negInf (fun r => msk Q K b t r)
/-- The shifted, exponentiated score. -/
def ex (Q K : Arr) (b : Fin 16) (t r : Fin 256) : EReal := Ideal.exp (msk Q K b t r - mx Q K b t)
/-- A row's sum of those. -/
def sm (Q K : Arr) (b : Fin 16) (t : Fin 256) : EReal := ∑ r : Fin 256, ex Q K b t r
/-- The weight of row 'r' for row 't'. -/
def pr (Q K : Arr) (b : Fin 16) (t r : Fin 256) : EReal := Ideal.div (ex Q K b t r) (sm Q K b t)
/-- The weighted combination of the rows of V. -/
def outv (Q K V : Arr) (b : Fin 16) (t : Fin 256) (k : Fin 3200) : EReal := ∑ r : Fin 256, pr Q K b t r * row V b r k

theorem rowOf_lt (c h : Fin 16) : c.val * 16 + h.val < 256 := by have := c.isLt; have := h.isLt; omega
theorem colOf_lt (n : Fin 25) (w : Fin 128) : n.val * 128 + w.val < 3200 := by have := n.isLt; have := w.isLt; omega

/-- The result at coordinates. -/
def Gat (Q K V : Arr) (b c : Fin 16) (n : Fin 25) (h : Fin 16) (w : Fin 128) : EReal :=
  outv Q K V b ⟨c.val * 16 + h.val, rowOf_lt c h⟩ ⟨n.val * 128 + w.val, colOf_lt n w⟩ + V (ix5 b c n h w)

/-- The result array. -/
def G (Q K V : Arr) : Arr := fun i => Gat Q K V (i 0) (i 1) (i 2) (i 3) (i 4)

theorem G_ix5 (Q K V : Arr) (b c : Fin 16) (n : Fin 25) (h : Fin 16) (w : Fin 128) :
    G Q K V (ix5 b c n h w) = Gat Q K V b c n h w := rfl

/-- 'row' at a row and a column given by coordinates. -/
theorem row_coords (X : Arr) (b c : Fin 16) (n : Fin 25) (h : Fin 16) (w : Fin 128) :
    row X b ⟨c.val * 16 + h.val, rowOf_lt c h⟩ ⟨n.val * 128 + w.val, colOf_lt n w⟩ = X (ix5 b c n h w) := by
  unfold row
  have hc := c.isLt; have hh := h.isLt; have hn := n.isLt; have hw := w.isLt
  refine congrArg X ?_
  funext a
  match a with
  | ⟨0, _⟩ => rfl
  | ⟨1, _⟩ => exact Fin.ext (by show (c.val * 16 + h.val) / 16 = c.val; omega)
  | ⟨2, _⟩ => exact Fin.ext (by show (n.val * 128 + w.val) / 128 = n.val; omega)
  | ⟨3, _⟩ => exact Fin.ext (by show (c.val * 16 + h.val) % 16 = h.val; omega)
  | ⟨4, _⟩ => exact Fin.ext (by show (n.val * 128 + w.val) % 128 = w.val; omega)

/-! ## The two enumerations of the columns -/

/-- Column 25·w + n of the other enumeration is column 128·n + w of ours. -/
def colSwap : Fin 3200 ≃ Fin 3200 where
  toFun k := ⟨(k.val % 25) * 128 + k.val / 25, by have := k.isLt; omega⟩
  invFun k := ⟨(k.val % 128) * 25 + k.val / 128, by have := k.isLt; omega⟩
  left_inv k := Fin.ext (by have := k.isLt; show ((k.val % 25) * 128 + k.val / 25) % 128 * 25 + ((k.val % 25) * 128 + k.val / 25) / 128 = k.val; omega)
  right_inv k := Fin.ext (by have := k.isLt; show ((k.val % 128) * 25 + k.val / 128) % 25 * 128 + ((k.val % 128) * 25 + k.val / 128) / 25 = k.val; omega)

theorem colSwap_val (k : Fin 3200) : (colSwap k).val = (k.val % 25) * 128 + k.val / 25 := rfl

/-- A sum over all columns in the other enumeration is the sum in ours. -/
theorem sum_colSwap (f : Fin 3200 → EReal) : ∑ k : Fin 3200, f (colSwap k) = ∑ k : Fin 3200, f k :=
  Equiv.sum_comp colSwap f

/-- The fold of 'max' from the bottom element changes nothing when it meets the bottom element again. -/
theorem max_negInf (y : EReal) : max negInf y = y := by
  unfold negInf
  simp [Ideal.ofBits, Ideal.ieee]

end Cert.Attn

end
-- ==== Proof.TileRead.lean ====
/-
  How the operations of the kernel body read at an index.

  The body sees one batch entry as a block of axes (1, c, n, h, w) and re-lays it as a matrix of 256 rows and 3200
  columns: drop the unit axis, swap n and h, merge (c, h) into the row and (n, w) into the column. 'rows_apply' reads the
  matrix at (r, k) back at the block: c = r / 16, h = r % 16, n = k / 128, w = k % 128. 'unrows_apply' and 'addUnit_apply'
  are the way back. A vector of 256 numbers made a column ('col_apply') and spread over the columns ('spread_apply')
  reads its row's number everywhere. A sum or a maximum along the columns is the sum, or the fold of 'max', over the
  column number ('rowsum_apply', 'rowmax_apply'). The two matrix products into a zero accumulator are plain sums of
  products: row against row for the scores ('scores_apply'), row against column for the result ('mix_apply').
-/
import proofs.«111113_j20452634263756_2_alg».proof.Proof.Gen.KernelIdeal
import proofs.«111113_j20452634263756_2_alg».proof.Proof.AttnSpec
import Idealize.ShloMosaic.Lib.Pipeline.Value
import Idealize.ShloMosaic.Lib.ValueIdx
import Idealize.ShloMosaic.PureOps.Ideal.Laws

noncomputable section

namespace Cert.Attn.Tile

open Idealize.ShloMosaic Idealize.ShloMosaic.ValueIdx Cert.KernelIdeal

section Layout
variable {α : Type}

/-- The block re-laid as a 256 × 3200 matrix, read at (r, k). -/
theorem rows_apply (x : S1x16x25x16x128.Idx → α) (h1 : S1x16x25x16x128.ShapeCasts S16x25x16x128)
    (h2 : S16x25x16x128.Transposes [0, 2, 1, 3] S16x16x25x128) (h3 : S16x16x25x128.ShapeCasts S256x3200)
    (r : Fin 256) (k : Fin 3200) :
    shapeCast S256x3200 (transpose S16x16x25x128 [0, 2, 1, 3] (shapeCast S16x25x16x128 x h1) h2) h3 (ix2 r k)
      = x (ix5 (0 : Fin 1) (⟨r.val / 16, Attn.row_c r⟩ : Fin 16) (⟨k.val / 128, Attn.col_n k⟩ : Fin 25)
          (⟨r.val % 16, Attn.row_h r⟩ : Fin 16) (⟨k.val % 128, Attn.col_w k⟩ : Fin 128)) := by
  have hr := r.isLt; have hk := k.isLt
  refine (shapeCast_apply _ h3 (ix2 r k)
    (ix4 (⟨r.val / 16, Attn.row_c r⟩ : Fin 16) (⟨r.val % 16, Attn.row_h r⟩ : Fin 16)
      (⟨k.val / 128, Attn.col_n k⟩ : Fin 25) (⟨k.val % 128, Attn.col_w k⟩ : Fin 128))
    (by rw [Shape.rowMajor_val_four, Shape.rowMajor_val_two]
        show ((r.val / 16 * 16 + r.val % 16) * 25 + k.val / 128) * 128 + k.val % 128 = r.val * 3200 + k.val
        omega)).trans ?_
  refine (transpose_apply _ _ h2 _
    (ix4 (⟨r.val / 16, Attn.row_c r⟩ : Fin 16) (⟨k.val / 128, Attn.col_n k⟩ : Fin 25)
      (⟨r.val % 16, Attn.row_h r⟩ : Fin 16) (⟨k.val % 128, Attn.col_w k⟩ : Fin 128))
    (fun b => match b with | ⟨0, _⟩ => rfl | ⟨1, _⟩ => rfl | ⟨2, _⟩ => rfl | ⟨3, _⟩ => rfl)).trans ?_
  exact shapeCast_apply _ h1 _ _ (by
    rw [Shape.rowMajor_val_five, Shape.rowMajor_val_four]
    show (((0 * 16 + r.val / 16) * 25 + k.val / 128) * 16 + r.val % 16) * 128 + k.val % 128
      = ((r.val / 16 * 25 + k.val / 128) * 16 + r.val % 16) * 128 + k.val % 128
    omega)

/-- The block with its unit axis dropped, read at (c, n, h, w). -/
theorem dropUnit_apply (x : S1x16x25x16x128.Idx → α) (h1 : S1x16x25x16x128.ShapeCasts S16x25x16x128)
    (c : Fin 16) (n : Fin 25) (h : Fin 16) (w : Fin 128) :
    shapeCast S16x25x16x128 x h1 (ix4 c n h w) = x (ix5 (0 : Fin 1) c n h w) :=
  shapeCast_apply _ h1 _ _ (by
    rw [Shape.rowMajor_val_five, Shape.rowMajor_val_four]
    show (((0 * 16 + c.val) * 25 + n.val) * 16 + h.val) * 128 + w.val = ((c.val * 25 + n.val) * 16 + h.val) * 128 + w.val
    omega)

/-- A (c, n, h, w) array given its unit axis, read at (u, c, n, h, w). -/
theorem addUnit_apply (z : S16x25x16x128.Idx → α) (h1 : S16x25x16x128.ShapeCasts S1x16x25x16x128)
    (u : Fin 1) (c : Fin 16) (n : Fin 25) (h : Fin 16) (w : Fin 128) :
    shapeCast S1x16x25x16x128 z h1 (ix5 u c n h w) = z (ix4 c n h w) :=
  shapeCast_apply _ h1 _ _ (by
    have hu : u.val = 0 := by omega
    rw [Shape.rowMajor_val_four, Shape.rowMajor_val_five]
    show ((c.val * 25 + n.val) * 16 + h.val) * 128 + w.val = (((u.val * 16 + c.val) * 25 + n.val) * 16 + h.val) * 128 + w.val
    rw [hu]; omega)

/-- A 256 × 3200 matrix laid back as (c, n, h, w), read there: row 16·c + h, column 128·n + w. -/
theorem unrows_apply (y : S256x3200.Idx → α) (h1 : S256x3200.ShapeCasts S16x16x25x128)
    (h2 : S16x16x25x128.Transposes [0, 2, 1, 3] S16x25x16x128) (c : Fin 16) (n : Fin 25) (h : Fin 16) (w : Fin 128) :
    transpose S16x25x16x128 [0, 2, 1, 3] (shapeCast S16x16x25x128 y h1) h2 (ix4 c n h w)
      = y (ix2 (⟨c.val * 16 + h.val, Attn.rowOf_lt c h⟩ : Fin 256) (⟨n.val * 128 + w.val, Attn.colOf_lt n w⟩ : Fin 3200)) := by
  refine (transpose_apply _ _ h2 _ (ix4 c h n w)
    (fun b => match b with | ⟨0, _⟩ => rfl | ⟨1, _⟩ => rfl | ⟨2, _⟩ => rfl | ⟨3, _⟩ => rfl)).trans ?_
  exact shapeCast_apply _ h1 _ _ (by
    rw [Shape.rowMajor_val_two, Shape.rowMajor_val_four]
    show (c.val * 16 + h.val) * 3200 + (n.val * 128 + w.val) = ((c.val * 16 + h.val) * 25 + n.val) * 128 + w.val
    omega)

/-- 256 numbers made a column, read at (r, 0). -/
theorem col_apply (v : S256.Idx → α) (h : S256.ShapeCasts S256x1) (r : Fin 256) (u : Fin 1) :
    shapeCast S256x1 v h (ix2 r u) = v (ix1 r) :=
  shapeCast_apply _ h _ _ (by
    have hu : u.val = 0 := by omega
    rw [Shape.rowMajor_val_one, Shape.rowMajor_val_two]
    show r.val = r.val * 1 + u.val
    rw [hu]; omega)

/-- A column spread over N columns, read at (r, k): the column's number in row r. -/
theorem spread_apply {N : Nat} (v : S256x1.Idx → α) (h : S256x1.Broadcasts (⟨2, ![256, N]⟩ : Shape)) (r : Fin 256) (k : Fin N) :
    broadcastTo (⟨2, ![256, N]⟩ : Shape) v h (ix2 r k) = v (ix2 r (0 : Fin 1)) :=
  broadcastTo_apply _ h _ _ (fun a => match a with
    | ⟨0, _⟩ => by show r.val = if (256 : Nat) = 1 then 0 else r.val; rw [if_neg (by decide)]
    | ⟨1, _⟩ => by show (0 : Nat) = if (1 : Nat) = 1 then 0 else k.val; rw [if_pos rfl])

end Layout

/-! ## Sums and maxima along the columns -/

/-- Row 't' with column 'k' put back is (t, k). -/
theorem lift_row {N : Nat} (h : (⟨2, ![256, N]⟩ : Shape).Reduces [1] (⟨1, ![256]⟩ : Shape)) (t : Fin 256)
    (k : Fin ((⟨2, ![256, N]⟩ : Shape).size 1)) : h.lift (ix1 t) k = ix2 t (⟨k.val, k.isLt⟩ : Fin N) := by
  funext c; apply Fin.ext
  fin_cases c <;> rfl

/-- A sum along the columns, at row 't'. -/
theorem rowsum_apply {N : Nat} (v : FVec Ideal (⟨2, ![256, N]⟩ : Shape) .f32)
    (h : (⟨2, ![256, N]⟩ : Shape).Reduces [1] (⟨1, ![256]⟩ : Shape)) (hφ : FKind.Formats .f32)
    (hacc : (0x00000000#32 : BitVec 32) = FKind.add.neutral .f32 hφ) (t : Fin 256) :
    multiReduction .add [1] (⟨1, ![256]⟩ : Shape) v 0x00000000#32 h hφ hacc (ix1 t) = ∑ k : Fin N, v (ix2 t k) :=
  (Ideal.multiReduction_add_single v _ h hφ hacc (ix1 t)).trans
    (Finset.sum_congr rfl fun k _ => congrArg v (lift_row h t k))

/-- A maximum along the columns, at row 't': the fold of 'max' from the bottom element. -/
theorem rowmax_apply (v : FVec Ideal S256x256 .f32) (h : S256x256.Reduces [1] S256) (hφ : FKind.Formats .f32)
    (hacc : (0xFF800000#32 : BitVec 32) = FKind.maximumf.neutral .f32 hφ) (t : Fin 256) :
    multiReduction .maximumf [1] S256 v 0xFF800000#32 h hφ hacc (ix1 t)
      = (Finset.univ : Finset (Fin 256)).fold max Attn.negInf (fun r => v (ix2 t r)) := by
  unfold Attn.negInf
  refine (Ideal.multiReduction_maximumf_single v _ h hφ hacc (ix1 t)).trans ?_
  exact congrArg (fun f => Finset.fold max (Ideal.ofBits .f32 0xFF800000#32) f (Finset.univ : Finset (Fin 256)))
    (funext fun k => congrArg v (lift_row h t k))

/-! ## The two matrix products -/

/-- The scores' product: rows against rows. -/
abbrev DS : DotDims S256x3200 S256x3200 S256x256 := dot_S256x3200_S256x3200_S256x256_1_1_0_0_n_n
/-- The result's product: rows against columns. -/
abbrev DM : DotDims S256x256 S256x3200 S256x3200 := dot_S256x256_S256x3200_S256x3200_1_0_0_1_n_n

theorem DS_lhs0 (i : S256x256.Idx) (q : DS.contr.Idx) : (DS.lhsIdx i q 0).val = (i 0).val := by
  unfold DotDims.lhsIdx
  rw [dif_neg (show ¬(0 : Fin S256x3200.rank) ∈ DS.lhsBatch by decide), dif_pos (show (0 : Fin S256x3200.rank) ∈ DS.lhsNonContracting by decide)]
  rfl
theorem DS_lhs1 (i : S256x256.Idx) (q : DS.contr.Idx) : (DS.lhsIdx i q 1).val = (q ⟨0, by decide⟩).val :=
  DS.lhsIdx_val_of_single rfl i q
theorem DS_rhs0 (i : S256x256.Idx) (q : DS.contr.Idx) : (DS.rhsIdx i q 0).val = (i 1).val := by
  unfold DotDims.rhsIdx
  rw [dif_neg (show ¬(0 : Fin S256x3200.rank) ∈ DS.rhsBatch by decide), dif_pos (show (0 : Fin S256x3200.rank) ∈ DS.rhsNonContracting by decide)]
  rfl
theorem DS_rhs1 (i : S256x256.Idx) (q : DS.contr.Idx) : (DS.rhsIdx i q 1).val = (q ⟨0, by decide⟩).val :=
  DS.rhsIdx_val_of_single rfl i q

/-- The score of row 't' against row 's': the sum over the columns of the products. -/
theorem scores_apply (l r : FVec Ideal S256x3200 .bf16) (t s : Fin 256) :
    matmul DS none l r (constant (F := Ideal) S256x256 .f32 0x00000000#32) (ix2 t s) = ∑ k : Fin 3200, l (ix2 t k) * r (ix2 s k) := by
  simp only [matmul]
  rw [Ideal.matmul_constant_zero_apply, ← Equiv.sum_comp (ValueIdx.contrEquiv1 DS 3200 rfl rfl).symm]
  refine Finset.sum_congr rfl fun k _ => ?_
  have hk := ValueIdx.contrEquiv1_symm_val DS 3200 rfl rfl k
  have el : DS.lhsIdx (ix2 t s) ((ValueIdx.contrEquiv1 DS 3200 rfl rfl).symm k) = ix2 t k := funext fun a => Fin.ext (by
    match a with
    | ⟨0, _⟩ => exact DS_lhs0 _ _
    | ⟨1, _⟩ => exact (DS_lhs1 _ _).trans hk)
  have er : DS.rhsIdx (ix2 t s) ((ValueIdx.contrEquiv1 DS 3200 rfl rfl).symm k) = ix2 s k := funext fun a => Fin.ext (by
    match a with
    | ⟨0, _⟩ => exact DS_rhs0 _ _
    | ⟨1, _⟩ => exact (DS_rhs1 _ _).trans hk)
  rw [el, er]

theorem DM_lhs0 (i : S256x3200.Idx) (q : DM.contr.Idx) : (DM.lhsIdx i q 0).val = (i 0).val := by
  unfold DotDims.lhsIdx
  rw [dif_neg (show ¬(0 : Fin S256x256.rank) ∈ DM.lhsBatch by decide), dif_pos (show (0 : Fin S256x256.rank) ∈ DM.lhsNonContracting by decide)]
  rfl
theorem DM_lhs1 (i : S256x3200.Idx) (q : DM.contr.Idx) : (DM.lhsIdx i q 1).val = (q ⟨0, by decide⟩).val :=
  DM.lhsIdx_val_of_single rfl i q
theorem DM_rhs0 (i : S256x3200.Idx) (q : DM.contr.Idx) : (DM.rhsIdx i q 0).val = (q ⟨0, by decide⟩).val :=
  DM.rhsIdx_val_of_single rfl i q
theorem DM_rhs1 (i : S256x3200.Idx) (q : DM.contr.Idx) : (DM.rhsIdx i q 1).val = (i 1).val := by
  unfold DotDims.rhsIdx
  rw [dif_neg (show ¬(1 : Fin S256x3200.rank) ∈ DM.rhsBatch by decide), dif_pos (show (1 : Fin S256x3200.rank) ∈ DM.rhsNonContracting by decide)]
  rfl

/-- The result at row 't', column 'k': the sum over the rows 's' of weight times value. -/
theorem mix_apply (l : FVec Ideal S256x256 .bf16) (r : FVec Ideal S256x3200 .bf16) (t : Fin 256) (k : Fin 3200) :
    matmul DM none l r (constant (F := Ideal) S256x3200 .f32 0x00000000#32) (ix2 t k) = ∑ s : Fin 256, l (ix2 t s) * r (ix2 s k) := by
  simp only [matmul]
  rw [Ideal.matmul_constant_zero_apply, ← Equiv.sum_comp (ValueIdx.contrEquiv1 DM 256 rfl rfl).symm]
  refine Finset.sum_congr rfl fun s _ => ?_
  have hs := ValueIdx.contrEquiv1_symm_val DM 256 rfl rfl s
  have el : DM.lhsIdx (ix2 t k) ((ValueIdx.contrEquiv1 DM 256 rfl rfl).symm s) = ix2 t s := funext fun a => Fin.ext (by
    match a with
    | ⟨0, _⟩ => exact DM_lhs0 _ _
    | ⟨1, _⟩ => exact (DM_lhs1 _ _).trans hs)
  have er : DM.rhsIdx (ix2 t k) ((ValueIdx.contrEquiv1 DM 256 rfl rfl).symm s) = ix2 s k := funext fun a => Fin.ext (by
    match a with
    | ⟨0, _⟩ => exact (DM_rhs0 _ _).trans hs
    | ⟨1, _⟩ => exact DM_rhs1 _ _)
  rw [el, er]

end Cert.Attn.Tile

end
-- ==== Proof.TileValue.lean ====
/-
  What the kernel body computes from one batch entry, read at an index.

  The body's arithmetic is restated as a few small functions — 'mat' (a block as a 256 × 3200 matrix), 'unit' (rows
  divided by the larger of their length and eps), 'scoreTile' (masked scores), 'rowMax', 'weights' (the softmax of the
  masked scores given the row maxima), 'outTile' (weights times values, laid back, plus the value block) — and each of
  the body's stored and carried values is one of them ('pay1_eq' … 'pay5_eq'). When the three blocks hold batch entry
  'b' of the arrays Q, K, V ('Holds'), each function read at an index is the specification's term of the same name:
  the changes of number format are the identity on extended reals, and every sum met here already runs over the
  columns in the specification's own enumeration.
-/
import proofs.«111113_j20452634263756_2_alg».proof.Proof.Gen.KernelIdeal.Skeleton
import proofs.«111113_j20452634263756_2_alg».proof.Proof.TileRead

noncomputable section

namespace Cert.Attn.Tile

open Idealize.ShloMosaic Idealize.ShloMosaic.ValueIdx Cert.KernelIdeal Cert.KernelIdeal.Gen

/-! ## The body's arithmetic, in pieces -/

/-- A block as a 256 × 3200 matrix. -/
def mat (x : Vec Ideal S1x16x25x16x128 .f32) : FVec Ideal S256x3200 .f32 :=
  shapeCast S256x3200 (transpose S16x16x25x128 [0, 2, 1, 3] (shapeCast S16x25x16x128 x shapeCasts_S1x16x25x16x128_S16x25x16x128)
    transposes_S16x25x16x128_p0_2_1_3_S16x16x25x128) shapeCasts_S16x16x25x128_S256x3200

/-- Each row divided by the larger of its length and eps. -/
def unit (m : FVec Ideal S256x3200 .f32) : FVec Ideal S256x3200 .f32 :=
  divf m (broadcastTo S256x3200 (maximumf (sqrt (shapeCast S256x1
      (multiReduction .add [1] S256 (mulf m m) 0x00000000#32 reduces_S256x3200_S256 (.inl rfl) rfl) shapeCasts_S256_S256x1))
    (broadcast S256x1 (Scalar.ofBits (F := Ideal) .f32 0x2B8CBCCC#32))) broadcasts_S256x1_S256x3200)

/-- The masked scores of the rows of one block against the rows of another. -/
def scoreTile (x0 x1 : Vec Ideal S1x16x25x16x128 .f32) : FVec Ideal S256x256 .f32 :=
  select (cmpi .sge (iota .tc S256x256 32 [0] iota_S256x256_d0_w32) (iota .tc S256x256 32 [1] iota_S256x256_d1_w32))
    (matmul DS none (truncf .bf16 (unit (mat x0)) bitsLt_bf16_f32) (truncf .bf16 (unit (mat x1)) bitsLt_bf16_f32)
      (constant (F := Ideal) S256x256 .f32 0x00000000#32))
    (broadcast S256x256 (Scalar.ofBits (F := Ideal) .f32 0xD8635FA9#32))

/-- The maximum of each row of scores. -/
def rowMax (s : FVec Ideal S256x256 .f32) : FVec Ideal S256 .f32 :=
  multiReduction .maximumf [1] S256 s 0xFF800000#32 reduces_S256x256_S256 (.inl rfl) rfl

/-- Scores shifted by their row's maximum and exponentiated. -/
def expShift (s : FVec Ideal S256x256 .f32) (mxv : FVec Ideal S256 .f32) : FVec Ideal S256x256 .f32 :=
  exp (subf s (broadcastTo S256x256 (shapeCast S256x1 mxv shapeCasts_S256_S256x1) broadcasts_S256x1_S256x256))

/-- … and divided by their row's sum. -/
def weights (s : FVec Ideal S256x256 .f32) (mxv : FVec Ideal S256 .f32) : FVec Ideal S256x256 .f32 :=
  divf (expShift s mxv) (broadcastTo S256x256 (shapeCast S256x1
    (multiReduction .add [1] S256 (expShift s mxv) 0x00000000#32 reduces_S256x256_S256 (.inl rfl) rfl) shapeCasts_S256_S256x1)
    broadcasts_S256x1_S256x256)

/-- Weights times values, laid back as a block, plus the value block. -/
def outTile (v5 : FVec Ideal S16x25x16x128 .f32) (v11 : FVec Ideal S256x3200 .f32) (s : FVec Ideal S256x256 .f32)
    (mxv : FVec Ideal S256 .f32) : FVec Ideal S1x16x25x16x128 .f32 :=
  shapeCast S1x16x25x16x128 (addf (transpose S16x25x16x128 [0, 2, 1, 3] (shapeCast S16x16x25x128
      (matmul DM none (truncf .bf16 (weights s mxv) bitsLt_bf16_f32) (truncf .bf16 v11 bitsLt_bf16_f32)
        (constant (F := Ideal) S256x3200 .f32 0x00000000#32))
      shapeCasts_S256x3200_S16x16x25x128) transposes_S16x16x25x128_p0_2_1_3_S16x25x16x128) v5)
    shapeCasts_S16x25x16x128_S1x16x25x16x128

theorem pay2_eq (x : Vec Ideal S1x16x25x16x128 .f32) :
    k0_pay2 (F := Ideal) x = shapeCast S16x25x16x128 x shapeCasts_S1x16x25x16x128_S16x25x16x128 := rfl
theorem pay3_eq (x : Vec Ideal S1x16x25x16x128 .f32) : k0_pay3 (F := Ideal) x = mat x := rfl
theorem pay4_eq (x0 x1 : Vec Ideal S1x16x25x16x128 .f32) : k0_pay4 (F := Ideal) x0 x1 = scoreTile x0 x1 := rfl
theorem pay5_eq (x0 x1 : Vec Ideal S1x16x25x16x128 .f32) : k0_pay5 (F := Ideal) x0 x1 = rowMax (scoreTile x0 x1) := rfl
theorem pay1_eq (v5 : FVec Ideal S16x25x16x128 .f32) (v11 : FVec Ideal S256x3200 .f32) (s : FVec Ideal S256x256 .f32)
    (mxv : FVec Ideal S256 .f32) : k0_pay1 (F := Ideal) v5 v11 s mxv = outTile v5 v11 s mxv := rfl

/-! ## Read at an index -/

/-- The block 'x' holds batch entry 'b' of the array 'X'. -/
def Holds (x : Vec Ideal S1x16x25x16x128 .f32) (X : Arr) (b : Fin 16) : Prop :=
  ∀ (c : Fin 16) (n : Fin 25) (h : Fin 16) (w : Fin 128), x (ix5 (0 : Fin 1) c n h w) = X (ix5 b c n h w)

theorem mat_apply {x : Vec Ideal S1x16x25x16x128 .f32} {X : Arr} {b : Fin 16} (hx : Holds x X b) (r : Fin 256) (k : Fin 3200) :
    mat x (ix2 r k) = Attn.row X b r k :=
  (rows_apply x _ _ _ r k).trans (hx _ _ _ _)

theorem unit_apply (m : FVec Ideal S256x3200 .f32) (X : Arr) (b : Fin 16) (hm : ∀ r k, m (ix2 r k) = Attn.row X b r k)
    (r : Fin 256) (k : Fin 3200) : unit m (ix2 r k) = Attn.nr X b r k := by
  have e1 : multiReduction .add [1] S256 (mulf m m) 0x00000000#32 reduces_S256x3200_S256 (.inl rfl) rfl (ix1 r) = Attn.sqn X b r := by
    refine (rowsum_apply (N := 3200) (mulf m m) reduces_S256x3200_S256 (.inl rfl) rfl r).trans ?_
    unfold Attn.sqn
    exact Finset.sum_congr rfl fun k _ => by rw [mulf_apply, hm]
  unfold unit
  show Ideal.div (m (ix2 r k)) (broadcastTo S256x3200 _ broadcasts_S256x1_S256x3200 (ix2 r k)) = _
  rw [spread_apply (N := 3200) _ broadcasts_S256x1_S256x3200 r k, hm]
  show Ideal.div _ (max (Ideal.sqrt (shapeCast S256x1 _ shapeCasts_S256_S256x1 (ix2 r (0 : Fin 1)))) (Ideal.ofBits .f32 0x2B8CBCCC#32)) = _
  rw [col_apply _ shapeCasts_S256_S256x1 r 0, e1]
  rfl

theorem scoreTile_apply {x0 x1 : Vec Ideal S1x16x25x16x128 .f32} {Q K : Arr} {b : Fin 16} (h0 : Holds x0 Q b) (h1 : Holds x1 K b)
    (t r : Fin 256) : scoreTile x0 x1 (ix2 t r) = Attn.msk Q K b t r := by
  have ea : matmul DS none (truncf .bf16 (unit (mat x0)) bitsLt_bf16_f32) (truncf .bf16 (unit (mat x1)) bitsLt_bf16_f32)
      (constant (F := Ideal) S256x256 .f32 0x00000000#32) (ix2 t r) = Attn.att Q K b t r := by
    refine (scores_apply _ _ t r).trans ?_
    unfold Attn.att
    refine Finset.sum_congr rfl fun k _ => ?_
    show unit (mat x0) (ix2 t k) * unit (mat x1) (ix2 r k) = _
    rw [unit_apply _ Q b (fun r k => mat_apply h0 r k), unit_apply _ K b (fun r k => mat_apply h1 r k)]
  unfold scoreTile Attn.msk
  show Scalar.select (IntOp.cmpi .sge (iota .tc S256x256 32 [0] iota_S256x256_d0_w32 (ix2 t r)) (iota .tc S256x256 32 [1] iota_S256x256_d1_w32 (ix2 t r)))
    (matmul DS none _ _ _ (ix2 t r)) (Ideal.ofBits .f32 0xD8635FA9#32) = _
  rw [iota_single_apply, iota_single_apply, ea]
  rfl

theorem rowMax_apply (s : FVec Ideal S256x256 .f32) (Q K : Arr) (b : Fin 16) (hs : ∀ t r, s (ix2 t r) = Attn.msk Q K b t r)
    (t : Fin 256) : rowMax s (ix1 t) = Attn.mx Q K b t := by
  unfold rowMax Attn.mx
  refine (rowmax_apply s reduces_S256x256_S256 (.inl rfl) rfl t).trans ?_
  exact congrArg (fun f => Finset.fold max Attn.negInf f (Finset.univ : Finset (Fin 256))) (funext fun r => hs t r)

theorem expShift_apply (s : FVec Ideal S256x256 .f32) (mxv : FVec Ideal S256 .f32) (Q K : Arr) (b : Fin 16)
    (hs : ∀ t r, s (ix2 t r) = Attn.msk Q K b t r) (hm : ∀ t, mxv (ix1 t) = Attn.mx Q K b t) (t r : Fin 256) :
    expShift s mxv (ix2 t r) = Attn.ex Q K b t r := by
  unfold expShift Attn.ex
  show Ideal.exp (s (ix2 t r) - broadcastTo S256x256 _ broadcasts_S256x1_S256x256 (ix2 t r)) = _
  rw [spread_apply (N := 256) _ broadcasts_S256x1_S256x256 t r, col_apply _ shapeCasts_S256_S256x1 t 0, hs, hm]

theorem weights_apply (s : FVec Ideal S256x256 .f32) (mxv : FVec Ideal S256 .f32) (Q K : Arr) (b : Fin 16)
    (hs : ∀ t r, s (ix2 t r) = Attn.msk Q K b t r) (hm : ∀ t, mxv (ix1 t) = Attn.mx Q K b t) (t r : Fin 256) :
    weights s mxv (ix2 t r) = Attn.pr Q K b t r := by
  have e1 : multiReduction .add [1] S256 (expShift s mxv) 0x00000000#32 reduces_S256x256_S256 (.inl rfl) rfl (ix1 t) = Attn.sm Q K b t := by
    refine (rowsum_apply (N := 256) (expShift s mxv) reduces_S256x256_S256 (.inl rfl) rfl t).trans ?_
    unfold Attn.sm
    exact Finset.sum_congr rfl fun r _ => expShift_apply s mxv Q K b hs hm t r
  unfold weights Attn.pr
  show Ideal.div (expShift s mxv (ix2 t r)) (broadcastTo S256x256 _ broadcasts_S256x1_S256x256 (ix2 t r)) = _
  rw [spread_apply (N := 256) _ broadcasts_S256x1_S256x256 t r, col_apply _ shapeCasts_S256_S256x1 t 0, e1,
    expShift_apply s mxv Q K b hs hm t r]

theorem outTile_apply (v5 : FVec Ideal S16x25x16x128 .f32) (v11 : FVec Ideal S256x3200 .f32) (s : FVec Ideal S256x256 .f32)
    (mxv : FVec Ideal S256 .f32) (Q K V : Arr) (b : Fin 16)
    (hv5 : ∀ c n h w, v5 (ix4 c n h w) = V (ix5 b c n h w)) (hv11 : ∀ r k, v11 (ix2 r k) = Attn.row V b r k)
    (hs : ∀ t r, s (ix2 t r) = Attn.msk Q K b t r) (hm : ∀ t, mxv (ix1 t) = Attn.mx Q K b t)
    (u : Fin 1) (c : Fin 16) (n : Fin 25) (h : Fin 16) (w : Fin 128) :
    outTile v5 v11 s mxv (ix5 u c n h w) = Attn.Gat Q K V b c n h w := by
  unfold outTile Attn.Gat
  refine (addUnit_apply _ shapeCasts_S16x25x16x128_S1x16x25x16x128 u c n h w).trans ?_
  show transpose S16x25x16x128 [0, 2, 1, 3] _ transposes_S16x16x25x128_p0_2_1_3_S16x25x16x128 (ix4 c n h w) + v5 (ix4 c n h w) = _
  rw [unrows_apply _ shapeCasts_S256x3200_S16x16x25x128 transposes_S16x16x25x128_p0_2_1_3_S16x25x16x128 c n h w, hv5,
    mix_apply]
  unfold Attn.outv
  refine congrArg (· + V (ix5 b c n h w)) (Finset.sum_congr rfl fun r _ => ?_)
  show weights s mxv (ix2 _ r) * v11 (ix2 r _) = _
  rw [weights_apply s mxv Q K b hs hm, hv11]

/-- The whole body at an index of its output block: the three blocks holding batch entry 'b' of Q, K, V, the block it
    stores holds batch entry 'b' of the specification's result. -/
theorem body_apply {x0 x1 x2 : Vec Ideal S1x16x25x16x128 .f32} {Q K V : Arr} {b : Fin 16}
    (h0 : Holds x0 Q b) (h1 : Holds x1 K b) (h2 : Holds x2 V b) (u : Fin 1) (c : Fin 16) (n : Fin 25) (h : Fin 16) (w : Fin 128) :
    k0_pay1 (F := Ideal) (k0_pay2 x2) (k0_pay3 x2) (k0_pay4 x0 x1) (k0_pay5 x0 x1) (ix5 u c n h w) = Attn.Gat Q K V b c n h w := by
  rw [pay1_eq, pay2_eq, pay3_eq, pay4_eq, pay5_eq]
  exact outTile_apply _ _ _ _ Q K V b
    (fun c n h w => (dropUnit_apply x2 _ c n h w).trans (h2 c n h w))
    (fun r k => mat_apply h2 r k)
    (fun t r => scoreTile_apply h0 h1 t r)
    (fun t => rowMax_apply _ Q K b (fun t r => scoreTile_apply h0 h1 t r) t)
    u c n h w

end Cert.Attn.Tile

end
-- ==== Proof.Whole.lean ====
/-
  From blocks to the whole array.

  The grid has one axis of 16 points, and at point t every window's block is batch entry t of its array: block index
  (t, 0, 0, 0, 0) of size (1, 16, 25, 16, 128) ('idx_facts', decided over the 16 points). So at point t the three input
  blocks hold batch entry t of Q, K and V ('holdsQ', 'holdsK', 'holdsV'), the block the body stores is batch entry t of
  the specification's result ('flushed_eq', by 'Tile.body_apply'), and since every index (b, c, n, h, w) of the result
  array lies in the block of point t = b ('cover'), the array after the run IS the specification's result of the three
  argument arrays ('final', 'run').
-/
import proofs.«111113_j20452634263756_2_alg».proof.Proof.Gen.KernelIdeal.Value
import proofs.«111113_j20452634263756_2_alg».proof.Proof.TileValue

set_option maxRecDepth 16384

noncomputable section

namespace Cert.Attn.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0, 0, 0, 0] : Fin 5 → Nat) = fun _ => 0 := funext fun a => by fin_cases a <;> rfl

/-- Every window's block at point t is batch entry t: block index (t, 0, 0, 0, 0). -/
theorem idx_facts : ∀ t : Fin cfg0.N,
    (win0_0.index t (0 : Fin 5) = t.val ∧ win0_0.index t (1 : Fin 5) = 0 ∧ win0_0.index t (2 : Fin 5) = 0
      ∧ win0_0.index t (3 : Fin 5) = 0 ∧ win0_0.index t (4 : Fin 5) = 0)
    ∧ (win0_1.index t (0 : Fin 5) = t.val ∧ win0_1.index t (1 : Fin 5) = 0 ∧ win0_1.index t (2 : Fin 5) = 0
      ∧ win0_1.index t (3 : Fin 5) = 0 ∧ win0_1.index t (4 : Fin 5) = 0)
    ∧ (win0_2.index t (0 : Fin 5) = t.val ∧ win0_2.index t (1 : Fin 5) = 0 ∧ win0_2.index t (2 : Fin 5) = 0
      ∧ win0_2.index t (3 : Fin 5) = 0 ∧ win0_2.index t (4 : Fin 5) = 0)
    ∧ (win0_3.index t (0 : Fin 5) = t.val ∧ win0_3.index t (1 : Fin 5) = 0 ∧ win0_3.index t (2 : Fin 5) = 0
      ∧ win0_3.index t (3 : Fin 5) = 0 ∧ win0_3.index t (4 : Fin 5) = 0) :=
  (by decide +kernel : ∀ t : Fin grid0.N, _)

/-- Every batch entry is some point's. -/
theorem idx_onto : ∀ b : Fin 16, ∃ t : Fin cfg0.N, t.val = b.val :=
  (by decide +kernel : ∀ b : Fin 16, ∃ t : Fin grid0.N, t.val = b.val)

theorem point_lt (t : Fin cfg0.N) : t.val < 16 := by
  have ht : t.val < grid0.N := t.isLt
  rw [N_0] at ht
  exact ht

/-- The batch entry of point t. -/
def entry (t : Fin cfg0.N) : Fin 16 := ⟨t.val, point_lt t⟩

theorem holdsQ (c : Dev nD) (t : Fin cfg0.N) : Tile.Holds (iblk m c 0 t) (V m c main_arg0) (entry t) := by
  intro c' n h w
  obtain ⟨⟨e0, e1, e2, e3, e4⟩, -⟩ := idx_facts t
  show V m c main_arg0 (((cfg0.win 0).blk t).view.emb (ix5 (0 : Fin 1) c' n h w)) = V m c main_arg0 (ix5 (entry t) c' n h w)
  refine congrArg (V m c main_arg0) (funext fun a => Fin.ext ?_)
  match a with
  | ⟨0, _⟩ => show win0_0.index t (0 : Fin 5) * 1 + 1 * 0 = t.val; omega
  | ⟨1, _⟩ => show win0_0.index t (1 : Fin 5) * 16 + 1 * c'.val = c'.val; omega
  | ⟨2, _⟩ => show win0_0.index t (2 : Fin 5) * 25 + 1 * n.val = n.val; omega
  | ⟨3, _⟩ => show win0_0.index t (3 : Fin 5) * 16 + 1 * h.val = h.val; omega
  | ⟨4, _⟩ => show win0_0.index t (4 : Fin 5) * 128 + 1 * w.val = w.val; omega

theorem holdsK (c : Dev nD) (t : Fin cfg0.N) : Tile.Holds (iblk m c 1 t) (V m c main_arg1) (entry t) := by
  intro c' n h w
  obtain ⟨-, ⟨e0, e1, e2, e3, e4⟩, -⟩ := idx_facts t
  show V m c main_arg1 (((cfg0.win 1).blk t).view.emb (ix5 (0 : Fin 1) c' n h w)) = V m c main_arg1 (ix5 (entry t) c' n h w)
  refine congrArg (V m c main_arg1) (funext fun a => Fin.ext ?_)
  match a with
  | ⟨0, _⟩ => show win0_1.index t (0 : Fin 5) * 1 + 1 * 0 = t.val; omega
  | ⟨1, _⟩ => show win0_1.index t (1 : Fin 5) * 16 + 1 * c'.val = c'.val; omega
  | ⟨2, _⟩ => show win0_1.index t (2 : Fin 5) * 25 + 1 * n.val = n.val; omega
  | ⟨3, _⟩ => show win0_1.index t (3 : Fin 5) * 16 + 1 * h.val = h.val; omega
  | ⟨4, _⟩ => show win0_1.index t (4 : Fin 5) * 128 + 1 * w.val = w.val; omega

theorem holdsV (c : Dev nD) (t : Fin cfg0.N) : Tile.Holds (iblk m c 2 t) (V m c main_arg2) (entry t) := by
  intro c' n h w
  obtain ⟨-, -, ⟨e0, e1, e2, e3, e4⟩, -⟩ := idx_facts t
  show V m c main_arg2 (((cfg0.win 2).blk t).view.emb (ix5 (0 : Fin 1) c' n h w)) = V m c main_arg2 (ix5 (entry t) c' n h w)
  refine congrArg (V m c main_arg2) (funext fun a => Fin.ext ?_)
  match a with
  | ⟨0, _⟩ => show win0_2.index t (0 : Fin 5) * 1 + 1 * 0 = t.val; omega
  | ⟨1, _⟩ => show win0_2.index t (1 : Fin 5) * 16 + 1 * c'.val = c'.val; omega
  | ⟨2, _⟩ => show win0_2.index t (2 : Fin 5) * 25 + 1 * n.val = n.val; omega
  | ⟨3, _⟩ => show win0_2.index t (3 : Fin 5) * 16 + 1 * h.val = h.val; omega
  | ⟨4, _⟩ => show win0_2.index t (4 : Fin 5) * 128 + 1 * w.val = w.val; omega

/-- The result array the specification gives for the argument arrays as the region finds them. -/
abbrev Gm (c : Dev nD) : Attn.Arr := Attn.G (V m c main_arg0) (V m c main_arg1) (V m c main_arg2)

/-- What point t writes back is batch entry t of the specification's result. -/
theorem flushed_eq (c : Dev nD) (t : Fin cfg0.N) :
    (dats m 0 c).flushed 3 t = ((cfg0.win 3).blk t).view.read (Elt Ideal) (Gm m c) := by
  rw [Cert.KernelIdeal.Value.flushed3]
  unfold out0_3
  rw [View.canon_unit_zero hz]
  simp only [View.ld_unit_zero (S := S1x16x25x16x128) hz]
  obtain ⟨-, -, -, ⟨e0, e1, e2, e3, e4⟩⟩ := idx_facts t
  funext j
  obtain ⟨u, c', n, h, w, rfl⟩ : ∃ (u : Fin 1) (c' : Fin 16) (n : Fin 25) (h : Fin 16) (w : Fin 128), j = ix5 u c' n h w :=
    ⟨j 0, j 1, j 2, j 3, j 4, eq_ix5 j⟩
  show k0_pay1 (F := Ideal) (k0_pay2 (iblk m c 2 t)) (k0_pay3 (iblk m c 2 t)) (k0_pay4 (iblk m c 0 t) (iblk m c 1 t))
      (k0_pay5 (iblk m c 0 t) (iblk m c 1 t)) (ix5 u c' n h w)
    = Gm m c (((cfg0.win 3).blk t).view.emb (ix5 u c' n h w))
  refine (Tile.body_apply (holdsQ m c t) (holdsK m c t) (holdsV m c t) u c' n h w).trans ?_
  refine (Attn.G_ix5 _ _ _ (entry t) c' n h w).symm.trans ?_
  refine congrArg (Gm m c) (funext fun a => Fin.ext ?_)
  have hu : u.val = 0 := by omega
  match a with
  | ⟨0, _⟩ => show t.val = win0_3.index t (0 : Fin 5) * 1 + 1 * u.val; omega
  | ⟨1, _⟩ => show c'.val = win0_3.index t (1 : Fin 5) * 16 + 1 * c'.val; omega
  | ⟨2, _⟩ => show n.val = win0_3.index t (2 : Fin 5) * 25 + 1 * n.val; omega
  | ⟨3, _⟩ => show h.val = win0_3.index t (3 : Fin 5) * 16 + 1 * h.val; omega
  | ⟨4, _⟩ => show w.val = win0_3.index t (4 : Fin 5) * 128 + 1 * w.val; omega

/-- An index of the array is in point t's block iff each coordinate is in the block's range on its axis. -/
theorem mem_blk (t : Fin cfg0.N) (i : S16x16x25x16x128.Idx) :
    i ∈ ((cfg0.win 3).blk t).view.set ↔ ∀ a : Fin 5, win0_3.index t a * S1x16x25x16x128.size a ≤ (i a).val
      ∧ (i a).val < win0_3.index t a * S1x16x25x16x128.size a + S1x16x25x16x128.size a := by
  show i ∈ ((View.whole main_v0).slice (win0_3.rect t)).set ↔ _
  rw [View.set_slice_whole, Rect.mem_set_unit]
  exact Iff.rfl

/-- Every index of the result array is in the block of the point of its batch entry. -/
theorem cover (i : S16x16x25x16x128.Idx) :
    ∃ t : Fin cfg0.N, (cfg0.win 3).flush t = true ∧ i ∈ ((cfg0.win 3).blk t).view.set := by
  have h0 : (i 0).val < 16 := (i 0).isLt
  have h1 : (i 1).val < 16 := (i 1).isLt
  have h2 : (i 2).val < 25 := (i 2).isLt
  have h3 : (i 3).val < 16 := (i 3).isLt
  have h4 : (i 4).val < 128 := (i 4).isLt
  obtain ⟨t, ht⟩ := idx_onto ⟨(i 0).val, h0⟩
  have ht' : t.val = (i 0).val := ht
  obtain ⟨-, -, -, ⟨e0, e1, e2, e3, e4⟩⟩ := idx_facts t
  refine ⟨t, flush0_3 t, ?_⟩
  rw [mem_blk]
  intro a
  match a with
  | ⟨0, _⟩ => show win0_3.index t (0 : Fin 5) * 1 ≤ (i 0).val ∧ (i 0).val < win0_3.index t (0 : Fin 5) * 1 + 1; omega
  | ⟨1, _⟩ => show win0_3.index t (1 : Fin 5) * 16 ≤ (i 1).val ∧ (i 1).val < win0_3.index t (1 : Fin 5) * 16 + 16; omega
  | ⟨2, _⟩ => show win0_3.index t (2 : Fin 5) * 25 ≤ (i 2).val ∧ (i 2).val < win0_3.index t (2 : Fin 5) * 25 + 25; omega
  | ⟨3, _⟩ => show win0_3.index t (3 : Fin 5) * 16 ≤ (i 3).val ∧ (i 3).val < win0_3.index t (3 : Fin 5) * 16 + 16; omega
  | ⟨4, _⟩ => show win0_3.index t (4 : Fin 5) * 128 ≤ (i 4).val ∧ (i 4).val < win0_3.index t (4 : Fin 5) * 128 + 128; omega

/-- The result array after the run is the specification's result of the three argument arrays. -/
theorem final (c : Dev nD) : (dats m 0 c).arrAt 3 cfg0.N
    = Attn.G (m ((c : Thread nD τ).loc main_arg0)) (m ((c : Thread nD τ).loc main_arg1)) (m ((c : Thread nD τ).loc main_arg2)) :=
  (dats m 0 c).arrAt_eq_of_cover 3 (Gm m c) (fun t _ => flushed_eq m c t) (cover)

/-- The kernel's run: the result array at the specification's function of the arguments, the arguments unchanged. -/
theorem run : θ_run defs (onTc (τ := τ) (main (F := Ideal))) ⟨m, fun _ => 0, ρ⟩ fun r => ∀ c : Dev nD,
      r.2.mem ((c : Thread nD τ).loc main_v0)
        = Attn.G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.Attn.Whole

end
-- ==== Proof.RefLayout.lean ====
/-
  The reference's re-layings of an argument array, read at an index.

  The reference splits n into (u, v) = (n / 5, n % 5), moves (h, w) in front of (u, v) and merges (c, h) into a row and
  (w, u, v) into a column: column 25·w + n. So its 16 × 256 × 3200 view of an array at (b, r, k) is the specification's
  matrix of batch entry b at row r and column 'colSwap k' ('toRows_apply'); its 16 × 3200 × 256 view, used for K, is the
  same with the last two axes exchanged ('toCols_apply'); and the way back from a 16 × 256 × 3200 result to
  (b, c, n, h, w) reads row 16·c + h and column 25·w + n ('fromRows_apply').
-/
import proofs.«111113_j20452634263756_2_alg».proof.Proof.Gen.ReferenceIdeal.Read
import proofs.«111113_j20452634263756_2_alg».proof.Proof.AttnSpec
import Idealize.ShloMosaic.Lib.ValueIdxRank6

noncomputable section

namespace Cert.Attn.Ref

open Idealize.ShloMosaic Idealize.ShloMosaic.ValueIdx Cert.ReferenceIdeal Cert.ReferenceIdeal.Read

theorem k_w (k : Fin 3200) : k.val / 25 < 128 := by have := k.isLt; omega
theorem k_n (k : Fin 3200) : k.val % 25 < 25 := Nat.mod_lt _ (by decide)
theorem k_u (k : Fin 3200) : k.val % 25 / 5 < 5 := by have := k_n k; omega
theorem k_v (k : Fin 3200) : k.val % 5 < 5 := Nat.mod_lt _ (by decide)

/-- Where the specification's matrix is read for the reference's column 'k'. -/
theorem row_colSwap (x : Attn.Arr) (b : Fin 16) (r : Fin 256) (k : Fin 3200) :
    x (ix5 b (⟨r.val / 16, Attn.row_c r⟩ : Fin 16) (⟨k.val % 25, k_n k⟩ : Fin 25) (⟨r.val % 16, Attn.row_h r⟩ : Fin 16)
      (⟨k.val / 25, k_w k⟩ : Fin 128)) = Attn.row x b r (Attn.colSwap k) := by
  have hk := k.isLt
  unfold Attn.row
  refine congrArg x (funext fun a => Fin.ext ?_)
  match a with
  | ⟨0, _⟩ => rfl
  | ⟨1, _⟩ => rfl
  | ⟨2, _⟩ => show k.val % 25 = ((k.val % 25) * 128 + k.val / 25) / 128; omega
  | ⟨3, _⟩ => rfl
  | ⟨4, _⟩ => show k.val / 25 = ((k.val % 25) * 128 + k.val / 25) % 128; omega

/-- The split of n into (u, v), read at (b, c, u, v, h, w). -/
theorem split_apply (x : Attn.Arr) (b c : Fin 16) (u v : Fin 5) (h : Fin 16) (w : Fin 128) (n : Fin 25)
    (hn : n.val = u.val * 5 + v.val) :
    val_main_v0 (F := Ideal) x (ix6 b c u v h w) = x (ix5 b c n h w) := by
  unfold val_main_v0
  exact shapeCast_apply _ _ _ _ (by
    rw [Shape.rowMajor_val_five, Shape.rowMajor_val_six]
    show (((b.val * 16 + c.val) * 25 + n.val) * 16 + h.val) * 128 + w.val
      = ((((b.val * 16 + c.val) * 5 + u.val) * 5 + v.val) * 16 + h.val) * 128 + w.val
    rw [hn]; omega)

/-- The reference's rows-by-columns view, read at (b, r, k). -/
theorem toRows_apply (x : Attn.Arr) (b : Fin 16) (r : Fin 256) (k : Fin 3200) :
    val_main_v2 (F := Ideal) x (ix3 b r k) = Attn.row x b r (Attn.colSwap k) := by
  have hr := r.isLt; have hk := k.isLt; have hb := b.isLt
  unfold val_main_v2
  refine (shapeCast_apply _ _ (ix3 b r k)
    (ix6 b (⟨r.val / 16, Attn.row_c r⟩ : Fin 16) (⟨r.val % 16, Attn.row_h r⟩ : Fin 16) (⟨k.val / 25, k_w k⟩ : Fin 128)
      (⟨k.val % 25 / 5, k_u k⟩ : Fin 5) (⟨k.val % 5, k_v k⟩ : Fin 5))
    (by rw [Shape.rowMajor_val_six, Shape.rowMajor_val_three]
        show ((((b.val * 16 + r.val / 16) * 16 + r.val % 16) * 128 + k.val / 25) * 5 + k.val % 25 / 5) * 5 + k.val % 5
          = (b.val * 256 + r.val) * 3200 + k.val
        omega)).trans ?_
  rw [val_main_v1_apply]
  have e : idx_main_v1 (ix6 b (⟨r.val / 16, Attn.row_c r⟩ : Fin 16) (⟨r.val % 16, Attn.row_h r⟩ : Fin 16) (⟨k.val / 25, k_w k⟩ : Fin 128)
      (⟨k.val % 25 / 5, k_u k⟩ : Fin 5) (⟨k.val % 5, k_v k⟩ : Fin 5))
      = ix6 b (⟨r.val / 16, Attn.row_c r⟩ : Fin 16) (⟨k.val % 25 / 5, k_u k⟩ : Fin 5) (⟨k.val % 5, k_v k⟩ : Fin 5)
        (⟨r.val % 16, Attn.row_h r⟩ : Fin 16) (⟨k.val / 25, k_w k⟩ : Fin 128) := by
    funext a
    match a with
    | ⟨0, _⟩ => rfl | ⟨1, _⟩ => rfl | ⟨2, _⟩ => rfl | ⟨3, _⟩ => rfl | ⟨4, _⟩ => rfl | ⟨5, _⟩ => rfl
  rw [e, split_apply x b _ _ _ _ _ (⟨k.val % 25, k_n k⟩ : Fin 25) (by show k.val % 25 = k.val % 25 / 5 * 5 + k.val % 5; omega)]
  exact row_colSwap x b r k

/-- The same view built for V. -/
theorem toRowsV_apply (x : Attn.Arr) (b : Fin 16) (r : Fin 256) (k : Fin 3200) :
    val_main_v24 (F := Ideal) x (ix3 b r k) = Attn.row x b r (Attn.colSwap k) :=
  toRows_apply x b r k

/-- The reference's columns-by-rows view, used for K, read at (b, k, r). -/
theorem toCols_apply (x : Attn.Arr) (b : Fin 16) (k : Fin 3200) (r : Fin 256) :
    val_main_v13 (F := Ideal) x (ix3 b k r) = Attn.row x b r (Attn.colSwap k) := by
  have hr := r.isLt; have hk := k.isLt; have hb := b.isLt
  unfold val_main_v13
  refine (shapeCast_apply _ _ (ix3 b k r)
    (ix6 b (⟨k.val / 25, k_w k⟩ : Fin 128) (⟨k.val % 25 / 5, k_u k⟩ : Fin 5) (⟨k.val % 5, k_v k⟩ : Fin 5)
      (⟨r.val / 16, Attn.row_c r⟩ : Fin 16) (⟨r.val % 16, Attn.row_h r⟩ : Fin 16))
    (by rw [Shape.rowMajor_val_six, Shape.rowMajor_val_three]
        show ((((b.val * 128 + k.val / 25) * 5 + k.val % 25 / 5) * 5 + k.val % 5) * 16 + r.val / 16) * 16 + r.val % 16
          = (b.val * 3200 + k.val) * 256 + r.val
        omega)).trans ?_
  rw [val_main_v12_apply]
  have e : idx_main_v12 (ix6 b (⟨k.val / 25, k_w k⟩ : Fin 128) (⟨k.val % 25 / 5, k_u k⟩ : Fin 5) (⟨k.val % 5, k_v k⟩ : Fin 5)
      (⟨r.val / 16, Attn.row_c r⟩ : Fin 16) (⟨r.val % 16, Attn.row_h r⟩ : Fin 16))
      = ix6 b (⟨r.val / 16, Attn.row_c r⟩ : Fin 16) (⟨k.val % 25 / 5, k_u k⟩ : Fin 5) (⟨k.val % 5, k_v k⟩ : Fin 5)
        (⟨r.val % 16, Attn.row_h r⟩ : Fin 16) (⟨k.val / 25, k_w k⟩ : Fin 128) := by
    funext a
    match a with
    | ⟨0, _⟩ => rfl | ⟨1, _⟩ => rfl | ⟨2, _⟩ => rfl | ⟨3, _⟩ => rfl | ⟨4, _⟩ => rfl | ⟨5, _⟩ => rfl
  rw [e]
  show val_main_v0 (F := Ideal) x _ = _
  rw [split_apply x b _ _ _ _ _ (⟨k.val % 25, k_n k⟩ : Fin 25) (by show k.val % 25 = k.val % 25 / 5 * 5 + k.val % 5; omega)]
  exact row_colSwap x b r k

theorem n_u (n : Fin 25) : n.val / 5 < 5 := by have := n.isLt; omega
theorem n_v (n : Fin 25) : n.val % 5 < 5 := Nat.mod_lt _ (by decide)
theorem colRef_lt (n : Fin 25) (w : Fin 128) : w.val * 25 + n.val < 3200 := by have := n.isLt; have := w.isLt; omega

/-- The reference's column 25·w + n is the specification's column 128·n + w. -/
theorem colSwap_colRef (n : Fin 25) (w : Fin 128) :
    Attn.colSwap (⟨w.val * 25 + n.val, colRef_lt n w⟩ : Fin 3200) = (⟨n.val * 128 + w.val, Attn.colOf_lt n w⟩ : Fin 3200) := by
  have hn := n.isLt; have hw := w.isLt
  exact Fin.ext (by show (w.val * 25 + n.val) % 25 * 128 + (w.val * 25 + n.val) / 25 = n.val * 128 + w.val; omega)

/-- The way back from rows and columns to (b, c, n, h, w). -/
theorem fromRows_apply (Q K V : Attn.Arr) (b c : Fin 16) (n : Fin 25) (h : Fin 16) (w : Fin 128) :
    val_main_v43 (F := Ideal) Q K V (ix5 b c n h w)
      = val_main_v40 (F := Ideal) Q K V (ix3 b (⟨c.val * 16 + h.val, Attn.rowOf_lt c h⟩ : Fin 256) (⟨w.val * 25 + n.val, colRef_lt n w⟩ : Fin 3200)) := by
  have hn := n.isLt; have hw := w.isLt; have hc := c.isLt; have hh := h.isLt
  unfold val_main_v43
  refine (shapeCast_apply _ _ (ix5 b c n h w) (ix6 b c (⟨n.val / 5, n_u n⟩ : Fin 5) (⟨n.val % 5, n_v n⟩ : Fin 5) h w)
    (by rw [Shape.rowMajor_val_six, Shape.rowMajor_val_five]
        show ((((b.val * 16 + c.val) * 5 + n.val / 5) * 5 + n.val % 5) * 16 + h.val) * 128 + w.val
          = (((b.val * 16 + c.val) * 25 + n.val) * 16 + h.val) * 128 + w.val
        omega)).trans ?_
  rw [val_main_v42_apply]
  have e : idx_main_v42 (ix6 b c (⟨n.val / 5, n_u n⟩ : Fin 5) (⟨n.val % 5, n_v n⟩ : Fin 5) h w)
      = ix6 b c h w (⟨n.val / 5, n_u n⟩ : Fin 5) (⟨n.val % 5, n_v n⟩ : Fin 5) := by
    funext a
    match a with
    | ⟨0, _⟩ => rfl | ⟨1, _⟩ => rfl | ⟨2, _⟩ => rfl | ⟨3, _⟩ => rfl | ⟨4, _⟩ => rfl | ⟨5, _⟩ => rfl
  rw [e]
  unfold val_main_v41
  exact shapeCast_apply _ _ _ _ (by
    rw [Shape.rowMajor_val_three, Shape.rowMajor_val_six]
    show (b.val * 256 + (c.val * 16 + h.val)) * 3200 + (w.val * 25 + n.val)
      = ((((b.val * 16 + c.val) * 16 + h.val) * 128 + w.val) * 5 + n.val / 5) * 5 + n.val % 5
    omega)

end Cert.Attn.Ref

end
-- ==== Proof.RefStages.lean ====
/-
  The index each stage of the reference reads its operand at, at an index given by coordinates: a broadcast reads the
  unit axis at 0, a sum or a product over an axis reads that axis at the summation variable.
-/
import proofs.«111113_j20452634263756_2_alg».proof.Proof.RefLayout

noncomputable section

namespace Cert.Attn.Ref

open Idealize.ShloMosaic Idealize.ShloMosaic.ValueIdx Cert.ReferenceIdeal Cert.ReferenceIdeal.Read

theorem i4 (b : Fin 16) (r : Fin 256) (k : Fin 3200) : idx_main_v4 (ix2 b r) k = ix3 b r k := by
  funext a; match a with | ⟨0, _⟩ => rfl | ⟨1, _⟩ => rfl | ⟨2, _⟩ => rfl
theorem i5 (b : Fin 16) (r : Fin 256) (u : Fin 1) : idx_main_v5 (ix3 b r u) = ix2 b r := by
  funext a; match a with | ⟨0, _⟩ => rfl | ⟨1, _⟩ => rfl
theorem i9 (b : Fin 16) (r : Fin 256) (k : Fin 3200) : idx_main_v9 (ix3 b r k) = ix3 b r (0 : Fin 1) := by
  funext a; match a with | ⟨0, _⟩ => rfl | ⟨1, _⟩ => rfl | ⟨2, _⟩ => rfl
theorem i15 (b : Fin 16) (r : Fin 256) (k : Fin 3200) : idx_main_v15 (ix2 b r) k = ix3 b k r := by
  funext a; match a with | ⟨0, _⟩ => rfl | ⟨1, _⟩ => rfl | ⟨2, _⟩ => rfl
theorem i16 (b : Fin 16) (u : Fin 1) (r : Fin 256) : idx_main_v16 (ix3 b u r) = ix2 b r := by
  funext a; match a with | ⟨0, _⟩ => rfl | ⟨1, _⟩ => rfl
theorem i20 (b : Fin 16) (k : Fin 3200) (r : Fin 256) : idx_main_v20 (ix3 b k r) = ix3 b (0 : Fin 1) r := by
  funext a; match a with | ⟨0, _⟩ => rfl | ⟨1, _⟩ => rfl | ⟨2, _⟩ => rfl
theorem il25 (b : Fin 16) (t r : Fin 256) (k : Fin 3200) : lidx_main_v25 (ix3 b t r) k = ix3 b t k := by
  funext a; match a with | ⟨0, _⟩ => rfl | ⟨1, _⟩ => rfl | ⟨2, _⟩ => rfl
theorem ir25 (b : Fin 16) (t r : Fin 256) (k : Fin 3200) : ridx_main_v25 (ix3 b t r) k = ix3 b k r := by
  funext a; match a with | ⟨0, _⟩ => rfl | ⟨1, _⟩ => rfl | ⟨2, _⟩ => rfl
theorem ic1 (b : Fin 16) (t r : Fin 256) : idx_main_call1_v0 (ix3 b t r) = ix2 t r := by
  funext a; match a with | ⟨0, _⟩ => rfl | ⟨1, _⟩ => rfl
theorem i32 (b : Fin 16) (t : Fin 256) (u : Fin 1) : idx_main_v32 (ix3 b t u) = ix2 b t := by
  funext a; match a with | ⟨0, _⟩ => rfl | ⟨1, _⟩ => rfl
theorem i33 (b : Fin 16) (t r : Fin 256) : idx_main_v33 (ix3 b t r) = ix3 b t (0 : Fin 1) := by
  funext a; match a with | ⟨0, _⟩ => rfl | ⟨1, _⟩ => rfl | ⟨2, _⟩ => rfl
theorem i36 (b : Fin 16) (t r : Fin 256) : idx_main_v36 (ix2 b t) r = ix3 b t r := by
  funext a; match a with | ⟨0, _⟩ => rfl | ⟨1, _⟩ => rfl | ⟨2, _⟩ => rfl
theorem i37 (b : Fin 16) (t : Fin 256) (u : Fin 1) : idx_main_v37 (ix3 b t u) = ix2 b t := by
  funext a; match a with | ⟨0, _⟩ => rfl | ⟨1, _⟩ => rfl
theorem i38 (b : Fin 16) (t r : Fin 256) : idx_main_v38 (ix3 b t r) = ix3 b t (0 : Fin 1) := by
  funext a; match a with | ⟨0, _⟩ => rfl | ⟨1, _⟩ => rfl | ⟨2, _⟩ => rfl
theorem il40 (b : Fin 16) (t : Fin 256) (k : Fin 3200) (r : Fin 256) : lidx_main_v40 (ix3 b t k) r = ix3 b t r := by
  funext a; match a with | ⟨0, _⟩ => rfl | ⟨1, _⟩ => rfl | ⟨2, _⟩ => rfl
theorem ir40 (b : Fin 16) (t : Fin 256) (k : Fin 3200) (r : Fin 256) : ridx_main_v40 (ix3 b t k) r = ix3 b r k := by
  funext a; match a with | ⟨0, _⟩ => rfl | ⟨1, _⟩ => rfl | ⟨2, _⟩ => rfl

end Cert.Attn.Ref

end
-- ==== Proof.RefNorm.lean ====
/-
  The reference's normalised rows. Its squared lengths are sums over its own enumeration of the columns, started from
  zero; 'sum_colSwap' brings them to the specification's enumeration and the zero adds nothing. Q is held as rows by
  columns, K as columns by rows; both read the specification's normalised row at the column 'colSwap k'.
-/
import proofs.«111113_j20452634263756_2_alg».proof.Proof.RefStages

noncomputable section

namespace Cert.Attn.Ref

open Idealize.ShloMosaic Idealize.ShloMosaic.ValueIdx Cert.ReferenceIdeal Cert.ReferenceIdeal.Read

variable (Q K : Attn.Arr)

/-! ## Normalised rows of Q -/

theorem sqn_q (b : Fin 16) (r : Fin 256) : val_main_v4 (F := Ideal) Q (ix2 b r) = Attn.sqn Q b r := by
  rw [val_main_v4_apply]
  show Ideal.ofBits .f32 0x00000000#32 + _ = _
  rw [Ideal.ofBits_zero_f32, zero_add]
  unfold Attn.sqn
  refine Eq.trans ?_ (Attn.sum_colSwap fun k => Attn.row Q b r k * Attn.row Q b r k)
  refine Finset.sum_congr rfl fun k _ => ?_
  rw [i4]
  show val_main_v2 (F := Ideal) Q (ix3 b r k) * val_main_v2 (F := Ideal) Q (ix3 b r k) = _
  rw [toRows_apply]

theorem den_q (b : Fin 16) (r : Fin 256) (u : Fin 1) : val_main_v8 (F := Ideal) Q (ix3 b r u) = Attn.den Q b r := by
  show max (Ideal.sqrt (val_main_v5 (F := Ideal) Q (ix3 b r u))) (val_main_v7 (F := Ideal) (ix3 b r u)) = _
  rw [val_main_v5_apply, i5, sqn_q, val_main_v7_apply]
  rfl

theorem nr_q (b : Fin 16) (r : Fin 256) (k : Fin 3200) :
    val_main_v10 (F := Ideal) Q (ix3 b r k) = Attn.nr Q b r (Attn.colSwap k) := by
  show Ideal.div (val_main_v2 (F := Ideal) Q (ix3 b r k)) (val_main_v9 (F := Ideal) Q (ix3 b r k)) = _
  rw [toRows_apply, val_main_v9_apply, i9, den_q]
  rfl

/-! ## Normalised rows of K, held as columns -/

theorem sqn_k (b : Fin 16) (r : Fin 256) : val_main_v15 (F := Ideal) K (ix2 b r) = Attn.sqn K b r := by
  rw [val_main_v15_apply]
  show Ideal.ofBits .f32 0x00000000#32 + _ = _
  rw [Ideal.ofBits_zero_f32, zero_add]
  unfold Attn.sqn
  refine Eq.trans ?_ (Attn.sum_colSwap fun k => Attn.row K b r k * Attn.row K b r k)
  refine Finset.sum_congr rfl fun k _ => ?_
  rw [i15]
  show val_main_v13 (F := Ideal) K (ix3 b k r) * val_main_v13 (F := Ideal) K (ix3 b k r) = _
  rw [toCols_apply]

theorem den_k (b : Fin 16) (u : Fin 1) (r : Fin 256) : val_main_v19 (F := Ideal) K (ix3 b u r) = Attn.den K b r := by
  show max (Ideal.sqrt (val_main_v16 (F := Ideal) K (ix3 b u r))) (val_main_v18 (F := Ideal) (ix3 b u r)) = _
  rw [val_main_v16_apply, i16, sqn_k, val_main_v18_apply]
  rfl

theorem nr_k (b : Fin 16) (k : Fin 3200) (r : Fin 256) :
    val_main_v21 (F := Ideal) K (ix3 b k r) = Attn.nr K b r (Attn.colSwap k) := by
  show Ideal.div (val_main_v13 (F := Ideal) K (ix3 b k r)) (val_main_v20 (F := Ideal) K (ix3 b k r)) = _
  rw [toCols_apply, val_main_v20_apply, i20, den_k]
  rfl

end Cert.Attn.Ref

end
-- ==== Proof.RefSoftmax.lean ====
/-
  The reference's scores, mask and softmax. The scores are sums over the reference's enumeration of the columns, brought
  to the specification's by 'sum_colSwap'. The mask compares the two row numbers, the reference adding zero to one of
  them and selecting true or false by the comparison, which is the comparison itself. The row maximum is the fold of
  'max' from the bottom element over the columns, and the further 'max' with the bottom element changes nothing.
-/
import proofs.«111113_j20452634263756_2_alg».proof.Proof.RefNorm
import Idealize.ShloMosaic.PureOps.Reduce

noncomputable section

namespace Cert.Attn.Ref

open Idealize.ShloMosaic Idealize.ShloMosaic.ValueIdx Cert.ReferenceIdeal Cert.ReferenceIdeal.Gen Cert.ReferenceIdeal.Read

variable (Q K : Attn.Arr)

/-! ## Scores, mask, softmax -/

theorem att_ref (b : Fin 16) (t r : Fin 256) : val_main_v25 (F := Ideal) Q K (ix3 b t r) = Attn.att Q K b t r := by
  rw [val_main_v25_apply]
  unfold Attn.att
  refine Eq.trans ?_ (Attn.sum_colSwap fun k => Attn.nr Q b t k * Attn.nr K b r k)
  refine Finset.sum_congr rfl fun k _ => ?_
  rw [il25, ir25, nr_q, nr_k]

/-- Selecting true or false by a bit is the bit. -/
theorem select_bit (c : BitVec 1) : Scalar.select c (1#1 : BitVec 1) (0#1 : BitVec 1) = c := by
  unfold Scalar.select
  by_cases h : c = 1
  · rw [if_pos h, h]; rfl
  · rw [if_neg h]; exact (ValueIdx.eq_zero_of_ne_one h).symm

theorem keep_ref (t r : Fin 256) : val_main_v27 (F := Ideal) (ix2 t r) = Attn.keep t r := by
  show Scalar.select (IntOp.cmpi .sge (IntOp.addi (BitVec.ofNat 32 t.val) (val_main_call0_v1 (F := Ideal) (ix2 t r))) (BitVec.ofNat 32 r.val))
    (val_main_v26 (F := Ideal) (ix2 t r)) (val_main_call0_v5 (F := Ideal) (ix2 t r)) = _
  rw [val_main_call0_v1_apply, val_main_v26_apply, val_main_call0_v5_apply]
  show Scalar.select (IntOp.cmpi .sge (BitVec.ofNat 32 t.val + 0#32) (BitVec.ofNat 32 r.val)) (1#1 : BitVec 1) (0#1 : BitVec 1) = _
  rw [select_bit, BitVec.add_zero]
  rfl

theorem msk_ref (b : Fin 16) (t r : Fin 256) : val_main_v28 (F := Ideal) Q K (ix3 b t r) = Attn.msk Q K b t r := by
  rw [val_main_v28_apply, val_main_call1_v0_apply, ic1, keep_ref, att_ref, val_main_call1_v1_apply]
  rfl

/-- Batch entry and row (b, t) with column 'r' put back is (b, t, r). -/
theorem lift_bt (h : S16x256x256.Reduces [2] S16x256) (b : Fin 16) (t : Fin 256) (r : Fin (S16x256x256.size 2)) :
    h.lift (ix2 b t) r = ix3 b t (⟨r.val, r.isLt⟩ : Fin 256) := by
  funext c; apply Fin.ext
  fin_cases c <;> rfl

/-- The bottom element, as the word the programs spell it by, is neutral for 'max'. -/
theorem max_bot_word (y : EReal) : max (Ideal.ofBits .f32 0xFF800000#32) y = y := by
  simp [Ideal.ofBits, Ideal.ieee]

theorem mx_ref (b : Fin 16) (t : Fin 256) : val_main_v29 (F := Ideal) Q K (ix2 b t) = Attn.mx Q K b t := by
  unfold val_main_v29
  refine (Host.reduce_eq_fold_single FloatOps.maximumf _ _ reducesTo_S16x256x256_S16x256_d2 (by decide) h_S_ (ix2 b t)).trans ?_
  rw [val_main_cst_4_apply, Ideal.ofBits_def]
  unfold Attn.mx Attn.negInf
  exact congrArg (fun f => Finset.fold max (Ideal.ofBits .f32 0xFF800000#32) f (Finset.univ : Finset (Fin 256)))
    (funext fun r => (congrArg (val_main_v28 (F := Ideal) Q K) (lift_bt _ b t r)).trans (msk_ref Q K b t r))

theorem mxx_ref (b : Fin 16) (t : Fin 256) : val_main_v31 (F := Ideal) Q K (ix2 b t) = Attn.mx Q K b t := by
  rw [val_main_v31_apply, Ideal.maximumf_def, val_main_v30_apply, val_main_cst_5_apply, Ideal.ofBits_def, mx_ref]
  exact max_bot_word _

theorem ex_ref (b : Fin 16) (t r : Fin 256) : val_main_v35 (F := Ideal) Q K (ix3 b t r) = Attn.ex Q K b t r := by
  show Ideal.exp (val_main_v28 (F := Ideal) Q K (ix3 b t r) - val_main_v33 (F := Ideal) Q K (ix3 b t r)) = _
  rw [msk_ref, val_main_v33_apply, i33, val_main_v32_apply, i32, mxx_ref]
  rfl

theorem sm_ref (b : Fin 16) (t : Fin 256) : val_main_v36 (F := Ideal) Q K (ix2 b t) = Attn.sm Q K b t := by
  rw [val_main_v36_apply]
  show Ideal.ofBits .f32 0x00000000#32 + _ = _
  rw [Ideal.ofBits_zero_f32, zero_add]
  unfold Attn.sm
  refine Finset.sum_congr rfl fun r _ => ?_
  rw [i36, ex_ref]

theorem pr_ref (b : Fin 16) (t r : Fin 256) : val_main_v39 (F := Ideal) Q K (ix3 b t r) = Attn.pr Q K b t r := by
  show Ideal.div (val_main_v35 (F := Ideal) Q K (ix3 b t r)) (val_main_v38 (F := Ideal) Q K (ix3 b t r)) = _
  rw [ex_ref, val_main_v38_apply, i38, val_main_v37_apply, i37, sm_ref]
  rfl

end Cert.Attn.Ref

end
-- ==== Proof.RefValue.lean ====
/-
  The reference computes the specification's function: the weighted rows of V at the reference's column k are the
  specification's at 'colSwap k', and the final re-laying puts row 16·c + h, column 25·w + n at (b, c, n, h, w), which
  is the specification's column 128·n + w.
-/
import proofs.«111113_j20452634263756_2_alg».proof.Proof.RefSoftmax

noncomputable section

namespace Cert.Attn.Ref

open Idealize.ShloMosaic Idealize.ShloMosaic.ValueIdx Cert.ReferenceIdeal Cert.ReferenceIdeal.Read

variable (Q K V : Attn.Arr)

/-! ## The result -/

theorem out_ref (b : Fin 16) (t : Fin 256) (k : Fin 3200) :
    val_main_v40 (F := Ideal) Q K V (ix3 b t k) = Attn.outv Q K V b t (Attn.colSwap k) := by
  rw [val_main_v40_apply]
  unfold Attn.outv
  refine Finset.sum_congr rfl fun r _ => ?_
  rw [il40, ir40, pr_ref, toRowsV_apply]

theorem G_ref_apply (b c : Fin 16) (n : Fin 25) (h : Fin 16) (w : Fin 128) :
    val_main_v44 (F := Ideal) Q K V (ix5 b c n h w) = Attn.Gat Q K V b c n h w := by
  rw [val_main_v44_apply, Ideal.addf_def, fromRows_apply, out_ref, colSwap_colRef]
  unfold Attn.Gat
  rfl

/-- The reference's result is the specification's. -/
theorem G_ref : val_main_v44 (F := Ideal) Q K V = Attn.G Q K V := by
  funext i
  obtain ⟨b, c, n, h, w, rfl⟩ : ∃ (b c : Fin 16) (n : Fin 25) (h : Fin 16) (w : Fin 128), i = ix5 b c n h w :=
    ⟨i 0, i 1, i 2, i 3, i 4, eq_ix5 i⟩
  rw [Attn.G_ix5]
  exact G_ref_apply Q K V b c n h w

end Cert.Attn.Ref

end
-- ==== Proof.lean ====
/-
  The kernel computes, for each of 16 batch entries, causal softmax attention between the 256 rows (c, h) of Q and K —
  each row of 3200 numbers (n, w) first divided by the larger of its Euclidean length and a small constant — and adds
  the value array to the weighted rows of V. The reference computes the same function of the same three arrays; the two
  differ in how they enumerate the 3200 columns (128·n + w against 25·w + n), in the number formats of the two matrix
  products (the identity on extended reals), and in one further 'max' with the bottom element on the reference's side.

  Proof/AttnSpec.lean states the common function 'G'; Proof/TileRead.lean and Proof/TileValue.lean read the kernel body at
  an index against it, and Proof/Whole.lean carries that from the 16 blocks to the whole result array; Proof/RefLayout.lean
  and Proof/RefValue.lean read the reference against it. Here the two runs are set side by side. The three frame claims are
  the generated frame runs (the reference's is its run with the result dropped), and the idealization rewrote nothing, so
  its conjunct is trivial. No finiteness of the inputs is used: the only law joining the two sides is that a finite sum of
  extended reals does not depend on the order of its terms.
-/
import proofs.«111113_j20452634263756_2_alg».proof.Defs
import proofs.«111113_j20452634263756_2_alg».proof.Proof.Gen.Kernel
import proofs.«111113_j20452634263756_2_alg».proof.Proof.Gen.Kernel.Skeleton
import proofs.«111113_j20452634263756_2_alg».proof.Proof.Gen.Kernel.Launch
import proofs.«111113_j20452634263756_2_alg».proof.Proof.Gen.Kernel.Points
import proofs.«111113_j20452634263756_2_alg».proof.Proof.Gen.Kernel.Frame
import proofs.«111113_j20452634263756_2_alg».proof.Proof.Gen.KernelIdeal
import proofs.«111113_j20452634263756_2_alg».proof.Proof.Gen.KernelIdeal.Skeleton
import proofs.«111113_j20452634263756_2_alg».proof.Proof.Gen.KernelIdeal.Launch
import proofs.«111113_j20452634263756_2_alg».proof.Proof.Gen.KernelIdeal.Points
import proofs.«111113_j20452634263756_2_alg».proof.Proof.Gen.KernelIdeal.Frame
import proofs.«111113_j20452634263756_2_alg».proof.Proof.Gen.ReferenceIdeal
import proofs.«111113_j20452634263756_2_alg».proof.Proof.Gen.Pre_finite_inputs
import proofs.«111113_j20452634263756_2_alg».proof.Proof.Gen.KernelIdeal.Value
import proofs.«111113_j20452634263756_2_alg».proof.Proof.Gen.ReferenceIdeal.Run
import proofs.«111113_j20452634263756_2_alg».proof.Proof.Gen.ReferenceIdeal.Read
import proofs.«111113_j20452634263756_2_alg».proof.Proof.Whole
import proofs.«111113_j20452634263756_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the specification's function of the argument arrays, which agree. -/
theorem algebraic : Cert.algebraic_KernelIdeal_ReferenceIdeal := by
  intro m ρ m' ρ' _ hagree
  refine ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Attn.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, Cert.Attn.Ref.G_ref, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
